-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 71
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S50000x128, .f32⟩
  | .hbm, ⟨33, _⟩ => ⟨S1600000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S50000x64, .f32⟩
  | .hbm, ⟨58, _⟩ => ⟨S1600000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  dot_S5000x64_S64x128_S5000x128_1_0_0_1_n_n_wf : DotDims.WF S5000x64 S64x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S50000x64, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S50000, .f32⟩
  | .hbm, ⟨76, _⟩ => ⟨S1600000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000, .f32⟩
  | .hbm, ⟨100, _⟩ => ⟨S1600000, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x64, .f32⟩
  | .hbm, ⟨110, _⟩ => ⟨S1600000x1, .f32⟩
  | .hbm, ⟨111, _⟩ => ⟨S1600000x64, .f32⟩
  | .hbm, ⟨112, _⟩ => ⟨S1600000x64, .f32⟩
  | .hbm, ⟨113, _⟩ => ⟨S_, .f32⟩
  | .hbm, ⟨114, _⟩ => ⟨S50000x64, .f32⟩
  | .hbm, ⟨115, _⟩ => ⟨S1600000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | .hbm, ⟨125, _⟩ => ⟨S_, .f32⟩
  | .hbm, ⟨126, _⟩ => ⟨S50000x64, .f32⟩
  | .hbm, ⟨127, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call1_cst : Ref sig .tc := ⟨.hbm, 125, rfl⟩
abbrev main_call1_v0 : Ref sig .tc := ⟨.hbm, 126, rfl⟩
abbrev main_v97 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.Spec.lean ====
/-
  The whole-array function one dense stage of the network computes, index by index: the product of a
  node-feature matrix with a weight matrix, each row then scaled by that node's entry of a one-column array
  (the node's inverse square-root degree). Stated over literal extents as implicit naturals, so that it is
  used at both layers (64 → 128 features, and 128 → 64).
-/
import Idealize.ShloMosaic.Lib.ValueIdx

noncomputable section

open scoped BigOperators

namespace Cert.Spec

open Idealize.ShloMosaic Idealize.ShloMosaic.ValueIdx

/-- The row coordinate of a rank-2 index, typed by the literal extent. -/
abbrev row {n0 n1 : Nat} (i : (⟨2, ![n0, n1]⟩ : Shape).Idx) : Fin n0 := ⟨(i 0).val, idx2_lt0 i⟩
/-- The column coordinate of a rank-2 index, typed by the literal extent. -/
abbrev col {n0 n1 : Nat} (i : (⟨2, ![n0, n1]⟩ : Shape).Idx) : Fin n1 := ⟨(i 1).val, idx2_lt1 i⟩

/-- `(X · W)(r, f) · D(r, 0)`: the matrix product, row `r` scaled by the column array's entry for `r`. -/
def scaledProd {N K C : Nat} (X : (⟨2, ![N, K]⟩ : Shape).Idx → EReal) (W : (⟨2, ![K, C]⟩ : Shape).Idx → EReal)
    (D : (⟨2, ![N, 1]⟩ : Shape).Idx → EReal) : (⟨2, ![N, C]⟩ : Shape).Idx → EReal :=
  fun i => (∑ k : Fin K, X (ix2 (row i) k) * W (ix2 k (col i))) * D (ix2 (row i) (0 : Fin 1))

theorem scaledProd_apply {N K C : Nat} (X : (⟨2, ![N, K]⟩ : Shape).Idx → EReal) (W : (⟨2, ![K, C]⟩ : Shape).Idx → EReal)
    (D : (⟨2, ![N, 1]⟩ : Shape).Idx → EReal) (i : (⟨2, ![N, C]⟩ : Shape).Idx) :
    scaledProd X W D i = (∑ k : Fin K, X (ix2 (row i) k) * W (ix2 k (col i))) * D (ix2 (row i) (0 : Fin 1)) := rfl

end Cert.Spec

end
-- ==== Proof.KTerms.lean ====
/-
  The kernel program's host side, as functions of the arrays it is given: the source and destination
  endpoints of the edges, the index wrap applied before a gather (a negative index counts from the end),
  the inverse square-root degree of each node (one plus the number of edges that arrive at it), and the
  aggregation stage that follows each dense stage: gather the scaled features at each edge's source, add
  them up at each edge's destination, scale that sum by the destination's inverse square-root degree, add the
  node's own scaled feature once more scaled (the self-loop), add the bias, and clamp at zero.
  The whole output is the second stage applied to the dense stage of the first stage's result.
-/
import proofs.«116535_j22385369547414_2_alg».proof.Proof.Gen.KernelIdeal
import proofs.«116535_j22385369547414_2_alg».proof.Proof.Spec

noncomputable section

namespace Cert.KernelIdeal.KTerms

open Cert.KernelIdeal Cert.KernelIdeal.Gen Idealize.ShloMosaic

/-- The sources of the edges: row 0 of the edge list. -/
def srcOf (ei : IVec S2x1600000 32) : IVec S1600000 32 :=
  shapeCast _ (extractStridedSlice S1x1600000 ![0, 0] ei slices_S2x1600000_S1x1600000_0_0) shapeCasts_S1x1600000_S1600000

/-- The destinations of the edges: row 1 of the edge list. -/
def dstOf (ei : IVec S2x1600000 32) : IVec S1600000 32 :=
  shapeCast _ (extractStridedSlice S1x1600000 ![1, 0] ei slices_S2x1600000_S1x1600000_1_0) shapeCasts_S1x1600000_S1600000

/-- A negative index counts from the end of the 50000 nodes. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- Each node's inverse square-root degree: one (the self-loop) plus the number of edges arriving at it. -/
def disOf (dst : IVec S1600000 32) : FVec Ideal S50000 .f32 :=
  Host.rsqrt (addf (broadcastInDim S50000 ![] bcast_S_S50000 (constant S_ .f32 0x3F800000#32))
    (Host.scatterAdd scatter_S50000_S1600000x1_S1600000_n_0_0_1
      (broadcastInDim S50000 ![] bcast_S_S50000 (constant S_ .f32 0x00000000#32))
      (broadcastInDim S1600000x1 ![0] bcast_S1600000_S1600000x1_0 dst)
      (broadcastInDim S1600000 ![] bcast_S_S1600000 (constant S_ .f32 0x3F800000#32))))

/-- The same as a one-column array. -/
def disCol (dst : IVec S1600000 32) : FVec Ideal S50000x1 .f32 :=
  broadcastInDim S50000x1 ![0] bcast_S50000_S50000x1_0 (disOf dst)

/-- The aggregation stage at 128 features. -/
def agg128 (HS : FVec Ideal S50000x128 .f32) (D2 : FVec Ideal S50000x1 .f32)
    (src dst : IVec S1600000 32) (b : FVec Ideal S128 .f32) :
    FVec Ideal S50000x128 .f32 :=
  maximumf
    (addf
      (addf
        (mulf (broadcastInDim S50000x128 ![0, 1] bcast_S50000x1_S50000x128_0_1 D2)
          (Host.scatterAdd scatter_S50000x128_S1600000x1_S1600000x128_1_0_0_1
            (broadcastInDim S50000x128 ![] bcast_S_S50000x128 (constant S_ .f32 0x00000000#32))
            (broadcastInDim S1600000x1 ![0] bcast_S1600000_S1600000x1_0 dst)
            (Host.gather gather_S50000x128_S1600000x1_S1600000x128_1_0_n_n_0_1_1128 HS
              (broadcastInDim S1600000x1 ![0] bcast_S1600000_S1600000x1_0 (wrapIdx src)))))
        (mulf HS (broadcastInDim S50000x128 ![0, 1] bcast_S50000x1_S50000x128_0_1 D2)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The aggregation stage at 64 features. -/
def agg64 (HS : FVec Ideal S50000x64 .f32) (D2 : FVec Ideal S50000x1 .f32)
    (src dst : IVec S1600000 32) (b : FVec Ideal S64 .f32) :
    FVec Ideal S50000x64 .f32 :=
  maximumf
    (addf
      (addf
        (mulf (broadcastInDim S50000x64 ![0, 1] bcast_S50000x1_S50000x64_0_1 D2)
          (Host.scatterAdd scatter_S50000x64_S1600000x1_S1600000x64_1_0_0_1
            (broadcastInDim S50000x64 ![] bcast_S_S50000x64 (constant S_ .f32 0x00000000#32))
            (broadcastInDim S1600000x1 ![0] bcast_S1600000_S1600000x1_0 dst)
            (Host.gather gather_S50000x64_S1600000x1_S1600000x64_1_0_n_n_0_1_164 HS
              (broadcastInDim S1600000x1 ![0] bcast_S1600000_S1600000x1_0 (wrapIdx src)))))
        (mulf HS (broadcastInDim S50000x64 ![0, 1] bcast_S50000x1_S50000x64_0_1 D2)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The first layer's result: the aggregation of the scaled product of the features with the first weights. -/
def hidden (x : FVec Ideal S50000x64 .f32) (ei : IVec S2x1600000 32)
    (W1 : FVec Ideal S64x128 .f32) (b1 : FVec Ideal S128 .f32) :
    FVec Ideal S50000x128 .f32 :=
  agg128 (Cert.Spec.scaledProd x W1 (disCol (dstOf ei))) (disCol (dstOf ei)) (srcOf ei) (dstOf ei) b1

/-- The kernel program's result as one function of its six arguments. -/
def kOut (x : FVec Ideal S50000x64 .f32) (ei : IVec S2x1600000 32)
    (W1 : FVec Ideal S64x128 .f32) (b1 : FVec Ideal S128 .f32)
    (W2 : FVec Ideal S128x64 .f32) (b2 : FVec Ideal S64 .f32) :
    FVec Ideal S50000x64 .f32 :=
  agg64 (Cert.Spec.scaledProd (hidden x ei W1 b1) W2 (disCol (dstOf ei))) (disCol (dstOf ei)) (srcOf ei) (dstOf ei) b2

end Cert.KernelIdeal.KTerms

end
-- ==== Proof.KRunNamed.lean ====
/-
  The kernel program's run with its result array named: at the compiled mesh, from any memory with zero
  counters, every weakly fair execution terminates, nothing faulting, and in every final state the result
  buffer holds the last boundary's contents of the fold through the program (the launch memory, each stretch
  of host operations applied in order, each dense region's output array at what its write-backs leave), and
  the six argument arrays are as launched.
-/
import proofs.«116535_j22385369547414_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result named: every final state has the result buffer at the last boundary's contents and
    each argument array as launched. The final thread state holds every unscoped buffer at the last boundary's
    contents; the result buffer is one of them, and each argument walks back through the fold to the launch
    memory. -/
theorem run_named : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.KStagesA.lean ====
/-
  The kernel program's buffer contents read back through the fold, the host stretches before the second dense
  region: what the first stretch leaves in the buffers the later stages read — the edges' endpoints, the
  inverse square-root degrees, the arguments — and what the second and third stretches (the first aggregation
  and its clamp at zero) leave, as the named functions of what the first dense region left.
-/
import proofs.«116535_j22385369547414_2_alg».proof.Proof.Gen.KernelIdeal.Frame
import proofs.«116535_j22385369547414_2_alg».proof.Proof.KTerms

set_option maxRecDepth 16384

noncomputable section

namespace Cert.KernelIdeal.KRun

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-- A buffer that no operation of a stretch writes holds after the stretch what it held before: the stretch's
    operations' result buffers are literal references, each different from the one read. -/
macro "not_written" : tactic =>
  `(tactic| exact StableHlo.after_of_forall_not_mem _ _ (List.forall_iff_forall_mem.mp (by
      simp only [hostOps0, hostOps1, hostOps1_1, hostOps2, hostOps2_1, List.Forall, StableHlo.nullary_writes,
        StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-! ## After the first stretch: the edges' endpoints, the inverse square-root degrees, the arguments -/

theorem W1_v1 (c : Dev nD) :
    (W1 m ρ c (Proc.devRef .tc main_v1) : IVec S1600000 32) = KTerms.srcOf (m ((c.tc : Thread nD τ).loc main_arg1)) := by
  show StableHlo.after hostOps0 _ (Proc.devRef .tc main_v1) = _
  after_results
  rfl

theorem W1_v3 (c : Dev nD) :
    (W1 m ρ c (Proc.devRef .tc main_v3) : IVec S1600000 32) = KTerms.dstOf (m ((c.tc : Thread nD τ).loc main_arg1)) := by
  show StableHlo.after hostOps0 _ (Proc.devRef .tc main_v3) = _
  after_results
  rfl

theorem W1_v11 (c : Dev nD) :
    (W1 m ρ c (Proc.devRef .tc main_v11) : FVec Ideal S50000x1 .f32)
      = KTerms.disCol (KTerms.dstOf (m ((c.tc : Thread nD τ).loc main_arg1))) := by
  show StableHlo.after hostOps0 _ (Proc.devRef .tc main_v11) = _
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = W0 m ρ c (Proc.devRef .tc main_arg0)
  not_written
theorem W1_arg2 (c : Dev nD) : W1 m ρ c (Proc.devRef .tc main_arg2) = m ((c.tc : Thread nD τ).loc main_arg2) := by
  show StableHlo.after hostOps0 (W0 m ρ c) (Proc.devRef .tc main_arg2) = W0 m ρ c (Proc.devRef .tc main_arg2)
  not_written
theorem W1_arg3 (c : Dev nD) : W1 m ρ c (Proc.devRef .tc main_arg3) = m ((c.tc : Thread nD τ).loc main_arg3) := by
  show StableHlo.after hostOps0 (W0 m ρ c) (Proc.devRef .tc main_arg3) = W0 m ρ c (Proc.devRef .tc main_arg3)
  not_written
theorem W1_arg4 (c : Dev nD) : W1 m ρ c (Proc.devRef .tc main_arg4) = m ((c.tc : Thread nD τ).loc main_arg4) := by
  show StableHlo.after hostOps0 (W0 m ρ c) (Proc.devRef .tc main_arg4) = W0 m ρ c (Proc.devRef .tc main_arg4)
  not_written
theorem W1_arg5 (c : Dev nD) : W1 m ρ c (Proc.devRef .tc main_arg5) = m ((c.tc : Thread nD τ).loc main_arg5) := by
  show StableHlo.after hostOps0 (W0 m ρ c) (Proc.devRef .tc main_arg5) = W0 m ρ c (Proc.devRef .tc main_arg5)
  not_written

/-! ## A typed reference's transport of contents is the identity

The clamp at zero is an outlined function: its operations are stated over references that carry the type of the
value they hold, and move contents between that type and the buffer's own along the equation of the two. At a
literal reference the two types are the same and the transport is the identity. -/

theorem ofBuf_toBuf {T : BufTy} (x : TRef sig T) (v : T.Contents (Elt Ideal)) : x.ofBuf (x.toBuf v) = v := by
  obtain ⟨r, rfl, _, _⟩ := x; rfl

theorem toBuf_v31 (v : FVec Ideal S50000x128 .f32) :
    ((TRef.of main_v31 : TRef sig ⟨S50000x128, .f32⟩).toBuf (Val := Elt Ideal) v : FVec Ideal S50000x128 .f32) = v := rfl
theorem ofBuf_v30 (v : FVec Ideal S50000x128 .f32) :
    ((TRef.of main_v30 : TRef sig ⟨S50000x128, .f32⟩).ofBuf (Val := Elt Ideal) v : FVec Ideal S50000x128 .f32) = v := rfl
theorem toBuf_v51 (v : FVec Ideal S50000x64 .f32) :
    ((TRef.of main_v51 : TRef sig ⟨S50000x64, .f32⟩).toBuf (Val := Elt Ideal) v : FVec Ideal S50000x64 .f32) = v := rfl
theorem ofBuf_v50 (v : FVec Ideal S50000x64 .f32) :
    ((TRef.of main_v50 : TRef sig ⟨S50000x64, .f32⟩).ofBuf (Val := Elt Ideal) v : FVec Ideal S50000x64 .f32) = v := rfl

/-! ## After the second and third stretches: the first aggregation, over what the first dense region left -/

set_option maxHeartbeats 400000 in
theorem W4_v31_rel (c : Dev nD) :
    (W4 m ρ c (Proc.devRef .tc main_v31) : FVec Ideal S50000x128 .f32)
      = KTerms.agg128 (W2 m ρ c (Proc.devRef .tc main_v12)) (W2 m ρ c (Proc.devRef .tc main_v11))
          (W2 m ρ c (Proc.devRef .tc main_v1)) (W2 m ρ c (Proc.devRef .tc main_v3)) (W2 m ρ c (Proc.devRef .tc main_arg3)) := by
  show StableHlo.after hostOps1_1 (StableHlo.after hostOps1 (W2 m ρ c)) (Proc.devRef .tc main_v31) = _
  after_results_simp
  simp only [ofBuf_toBuf]
  rw [toBuf_v31, ofBuf_v30]
  rfl

/-- The second and third stretches write none of the buffers the later stages still read. -/
theorem W4_v1 (c : Dev nD) : W4 m ρ c (Proc.devRef .tc main_v1) = W2 m ρ c (Proc.devRef .tc main_v1) :=
  (show StableHlo.after hostOps1_1 (W3 m ρ c) (Proc.devRef .tc main_v1) = W3 m ρ c (Proc.devRef .tc main_v1) by not_written).trans
    (show StableHlo.after hostOps1 (W2 m ρ c) (Proc.devRef .tc main_v1) = W2 m ρ c (Proc.devRef .tc main_v1) by not_written)
theorem W4_v3 (c : Dev nD) : W4 m ρ c (Proc.devRef .tc main_v3) = W2 m ρ c (Proc.devRef .tc main_v3) :=
  (show StableHlo.after hostOps1_1 (W3 m ρ c) (Proc.devRef .tc main_v3) = W3 m ρ c (Proc.devRef .tc main_v3) by not_written).trans
    (show StableHlo.after hostOps1 (W2 m ρ c) (Proc.devRef .tc main_v3) = W2 m ρ c (Proc.devRef .tc main_v3) by not_written)
theorem W4_v11 (c : Dev nD) : W4 m ρ c (Proc.devRef .tc main_v11) = W2 m ρ c (Proc.devRef .tc main_v11) :=
  (show StableHlo.after hostOps1_1 (W3 m ρ c) (Proc.devRef .tc main_v11) = W3 m ρ c (Proc.devRef .tc main_v11) by not_written).trans
    (show StableHlo.after hostOps1 (W2 m ρ c) (Proc.devRef .tc main_v11) = W2 m ρ c (Proc.devRef .tc main_v11) by not_written)
theorem W4_arg4 (c : Dev nD) : W4 m ρ c (Proc.devRef .tc main_arg4) = W2 m ρ c (Proc.devRef .tc main_arg4) :=
  (show StableHlo.after hostOps1_1 (W3 m ρ c) (Proc.devRef .tc main_arg4) = W3 m ρ c (Proc.devRef .tc main_arg4) by not_written).trans
    (show StableHlo.after hostOps1 (W2 m ρ c) (Proc.devRef .tc main_arg4) = W2 m ρ c (Proc.devRef .tc main_arg4) by not_written)
theorem W4_arg5 (c : Dev nD) : W4 m ρ c (Proc.devRef .tc main_arg5) = W2 m ρ c (Proc.devRef .tc main_arg5) :=
  (show StableHlo.after hostOps1_1 (W3 m ρ c) (Proc.devRef .tc main_arg5) = W3 m ρ c (Proc.devRef .tc main_arg5) by not_written).trans
    (show StableHlo.after hostOps1 (W2 m ρ c) (Proc.devRef .tc main_arg5) = W2 m ρ c (Proc.devRef .tc main_arg5) by not_written)

end Cert.KernelIdeal.KRun

end
-- ==== Proof.KStagesB.lean ====
/-
  The kernel program's buffer contents read back through the fold, the host stretches after the second dense
  region: what the last two stretches (the second aggregation and its clamp at zero) leave in the result
  buffer, as the named function of what the second dense region left.
-/
import proofs.«116535_j22385369547414_2_alg».proof.Proof.Gen.KernelIdeal.Frame
import proofs.«116535_j22385369547414_2_alg».proof.Proof.KTerms
import proofs.«116535_j22385369547414_2_alg».proof.Proof.KStagesA

set_option maxRecDepth 16384

noncomputable section

namespace Cert.KernelIdeal.KRun

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-! ## After the last two stretches: the second aggregation, over what the second dense region left -/

set_option maxHeartbeats 400000 in
theorem W7_v51_rel (c : Dev nD) :
    (W7 m ρ c (Proc.devRef .tc main_v51) : FVec Ideal S50000x64 .f32)
      = KTerms.agg64 (W5 m ρ c (Proc.devRef .tc main_v32)) (W5 m ρ c (Proc.devRef .tc main_v11))
          (W5 m ρ c (Proc.devRef .tc main_v1)) (W5 m ρ c (Proc.devRef .tc main_v3)) (W5 m ρ c (Proc.devRef .tc main_arg5)) := by
  show StableHlo.after hostOps2_1 (StableHlo.after hostOps2 (W5 m ρ c)) (Proc.devRef .tc main_v51) = _
  after_results_simp
  simp only [ofBuf_toBuf]
  rw [toBuf_v51, ofBuf_v50]
  rfl

end Cert.KernelIdeal.KRun

end
-- ==== Proof.RegionPayload.lean ====
/-
  One dense stage of the network, entry by entry of a block of 5000 nodes. The stage's body takes a block of node
  features, the whole weight matrix and the block's one-column array of node scales; it rounds both matrix operands to
  bf16 (the identity on exact values), multiplies them into a zero accumulator, and multiplies each row of the product
  by that row's scale, the column broadcast along the lanes. Read at (row p, lane q) this is
  (∑ k, x(p, k) · w(k, q)) · s(p, 0) — for the first layer with 64 shared coordinates and 128 lanes, for the second
  with 128 shared coordinates and 64 lanes.
-/
import proofs.«116535_j22385369547414_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.ValueIdx
open Idealize.ShloMosaic.Pipeline (Dat)

namespace Cert.KernelIdeal.RegionValue

open Cert.KernelIdeal Cert.KernelIdeal.Gen

/-- A one-column array broadcast along the lanes, read at (row, lane), is the column's entry for the row. -/
theorem colBroadcast_apply {a b : Nat} (x : (⟨2, ![a, 1]⟩ : Shape).Idx → EReal)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun d => ?_
  match d with
  | ⟨0, _⟩ =>
    show p.val = if a = 1 then 0 else p.val
    split_ifs with ha
    · subst ha; have := p.isLt; omega
    · rfl
  | ⟨1, _⟩ => exact (if_pos rfl).symm

/-- The zero offsets of a whole-buffer access, however they are spelt. -/
theorem zeroOff : (![0, 0] : Fin 2 → Nat) = fun _ => 0 := funext fun a => by fin_cases a <;> rfl

/-! ## Region 0: a 5000×64 block times the 64×128 weights, each row scaled -/

theorem lhs0_row (i : S5000x128.Idx) (u : dot_S5000x64_S64x128_S5000x128_1_0_0_1_n_n.contr.Idx) : (dot_S5000x64_S64x128_S5000x128_1_0_0_1_n_n.lhsIdx i u 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_sum (i : S5000x128.Idx) (u : dot_S5000x64_S64x128_S5000x128_1_0_0_1_n_n.contr.Idx) : (dot_S5000x64_S64x128_S5000x128_1_0_0_1_n_n.lhsIdx i u 1).val = (u ⟨0, by decide⟩).val :=
  dot_S5000x64_S64x128_S5000x128_1_0_0_1_n_n.lhsIdx_val_of_single rfl i u
theorem rhs0_sum (i : S5000x128.Idx) (u : dot_S5000x64_S64x128_S5000x128_1_0_0_1_n_n.contr.Idx) : (dot_S5000x64_S64x128_S5000x128_1_0_0_1_n_n.rhsIdx i u 0).val = (u ⟨0, by decide⟩).val :=
  dot_S5000x64_S64x128_S5000x128_1_0_0_1_n_n.rhsIdx_val_of_single rfl i u
theorem rhs0_lane (i : S5000x128.Idx) (u : dot_S5000x64_S64x128_S5000x128_1_0_0_1_n_n.contr.Idx) : (dot_S5000x64_S64x128_S5000x128_1_0_0_1_n_n.rhsIdx i u 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into a zero accumulator, read at (row, lane): the sum over the 64 shared coordinates. -/
theorem matmul0_apply (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_row _ _
    | ⟨1, _⟩ => exact (lhs0_sum _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_sum _ _).trans hk
    | ⟨1, _⟩ => exact rhs0_lane _ _)
  rw [el, er]

/-- What the body stores at (row, lane) of its block: the block's row times the weights' column, scaled by the
    row's entry of the one-column block (rounding to bf16 is the identity on exact values). -/
theorem k0_pay1_apply (x0 : Vec Ideal S5000x64 .f32) (x1 : Vec Ideal S64x128 .f32) (x2 : Vec Ideal S5000x1 .f32)
    (p : Fin 5000) (q : Fin 128) :
    Gen.k0_pay1 x0 x1 x2 (ix2 p q) = (∑ k : Fin 64, x0 (ix2 p k) * x1 (ix2 k q)) * x2 (ix2 p (0 : Fin 1)) := by
  unfold Gen.k0_pay1
  refine (mulf_apply _ _ (ix2 p q)).trans ?_
  refine congrArg₂ (· * ·) ?_ ?_
  · exact matmul0_apply _ _ p q
  · refine (colBroadcast_apply _ _ p q).trans ?_
    rw [shapeCast_self]

/-! ## Region 1: a 5000×128 block times the 128×64 weights, each row scaled -/

theorem lhs1_row (i : S5000x64.Idx) (u : dot_S5000x128_S128x64_S5000x64_1_0_0_1_n_n.contr.Idx) : (dot_S5000x128_S128x64_S5000x64_1_0_0_1_n_n.lhsIdx i u 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_sum (i : S5000x64.Idx) (u : dot_S5000x128_S128x64_S5000x64_1_0_0_1_n_n.contr.Idx) : (dot_S5000x128_S128x64_S5000x64_1_0_0_1_n_n.lhsIdx i u 1).val = (u ⟨0, by decide⟩).val :=
  dot_S5000x128_S128x64_S5000x64_1_0_0_1_n_n.lhsIdx_val_of_single rfl i u
theorem rhs1_sum (i : S5000x64.Idx) (u : dot_S5000x128_S128x64_S5000x64_1_0_0_1_n_n.contr.Idx) : (dot_S5000x128_S128x64_S5000x64_1_0_0_1_n_n.rhsIdx i u 0).val = (u ⟨0, by decide⟩).val :=
  dot_S5000x128_S128x64_S5000x64_1_0_0_1_n_n.rhsIdx_val_of_single rfl i u
theorem rhs1_lane (i : S5000x64.Idx) (u : dot_S5000x128_S128x64_S5000x64_1_0_0_1_n_n.contr.Idx) : (dot_S5000x128_S128x64_S5000x64_1_0_0_1_n_n.rhsIdx i u 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, read at (row, lane): the sum over the 128 shared coordinates. -/
theorem matmul1_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs1_row _ _
    | ⟨1, _⟩ => exact (lhs1_sum _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs1_sum _ _).trans hk
    | ⟨1, _⟩ => exact rhs1_lane _ _)
  rw [el, er]

/-- What the body stores at (row, lane) of its block: the block's row times the weights' column, scaled by the
    row's entry of the one-column block (rounding to bf16 is the identity on exact values). -/
theorem k1_pay1_apply (x0 : Vec Ideal S5000x128 .f32) (x1 : Vec Ideal S128x64 .f32) (x2 : Vec Ideal S5000x1 .f32)
    (p : Fin 5000) (q : Fin 64) :
    Gen.k1_pay1 x0 x1 x2 (ix2 p q) = (∑ k : Fin 128, x0 (ix2 p k) * x1 (ix2 k q)) * x2 (ix2 p (0 : Fin 1)) := by
  unfold Gen.k1_pay1
  refine (mulf_apply _ _ (ix2 p q)).trans ?_
  refine congrArg₂ (· * ·) ?_ ?_
  · rw [shapeCast_self]
    exact matmul1_apply _ _ p q
  · refine (colBroadcast_apply _ _ p q).trans ?_
    rw [shapeCast_self]

end Cert.KernelIdeal.RegionValue

end
-- ==== Proof.RegionValue0.lean ====
/-
  The first dense stage as a whole-array function. The stage runs over ten grid points; point t works on rows
  5000·t … 5000·t + 4999: it reads those rows of the node-feature array, the whole 64×128 weight matrix and those rows
  of the one-column scale array, and writes back those rows of the output. Since row p of block t is row 5000·t + p of
  the array, what point t writes back is that block of the scaled product (X · W)(r, f) · D(r, 0); the ten blocks cover
  the 50000 rows (row r belongs to point r / 5000), so after the last point the output array is the scaled product of
  the arrays the stage found, whatever those are.
-/
import proofs.«116535_j22385369547414_2_alg».proof.Proof.RegionPayload
import proofs.«116535_j22385369547414_2_alg».proof.Proof.Spec

noncomputable section

open scoped BigOperators
open Idealize.ShloMosaic Idealize.ShloMosaic.TcCoe Idealize.SL.Sem
open Idealize.ShloMosaic.ValueIdx
open Idealize.ShloMosaic.Pipeline (Dat)

namespace Cert.KernelIdeal.RegionValue

open Cert.KernelIdeal Cert.KernelIdeal.Gen

/-- The arithmetic of one block entry. If row p of the left block is row r of the whole left array, the weights block is
    the whole weight matrix and the one-column block's entry for p is the column array's entry for r, then what the body
    stores at (p, q) is the scaled product at (r, q). -/
theorem blockValue0 (X : S50000x64.Idx → EReal) (W : S64x128.Idx → EReal) (D : S50000x1.Idx → EReal)
    (x0 : Vec Ideal S5000x64 .f32) (x1 : Vec Ideal S64x128 .f32) (x2 : Vec Ideal S5000x1 .f32)
    (p : Fin 5000) (q : Fin 128) (r : Fin 50000)
    (h0 : ∀ k : Fin 64, x0 (ix2 p k) = X (ix2 r k))
    (h1 : ∀ k : Fin 64, x1 (ix2 k q) = W (ix2 k q))
    (h2 : x2 (ix2 p (0 : Fin 1)) = D (ix2 r (0 : Fin 1)))
    (y : S5000x128.Idx) (hy0 : (y 0).val = p.val) (hy1 : (y 1).val = q.val)
    (i : S50000x128.Idx) (hi0 : (i 0).val = r.val) (hi1 : (i 1).val = q.val) :
    Gen.k0_pay1 x0 x1 x2 y = Cert.Spec.scaledProd X W D i := by
  obtain rfl : y = ix2 p q := funext fun a => Fin.ext (by
    match a with
    | ⟨0, _⟩ => exact hy0
    | ⟨1, _⟩ => exact hy1)
  have er : Cert.Spec.row i = r := Fin.ext hi0
  have ec : Cert.Spec.col i = q := Fin.ext hi1
  rw [k0_pay1_apply, Cert.Spec.scaledProd_apply, er, ec, h2]
  exact congrArg (· * _) (Finset.sum_congr rfl fun k _ => by rw [h0 k, h1 k])

section
variable (V : (c : Dev nD) → (b : Ref sig .tc) → Buf (Elt Ideal) ((c : Thread nD τ).loc b))

/-- The windows' index maps at the ten grid points: the row-blocked windows sit at block row t, block column 0; the
    weights' window at block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back is rows 5000·t … 5000·t + 4999 of the scaled product of the arrays the region finds. -/
theorem flushed0_eq (c : Dev nD) (t : Fin cfg0.N) :
    (dat0 (F := Ideal) V c).flushed 3 t = ((cfg0.win 3).blk t).view.read (Elt Ideal)
      (Cert.Spec.scaledProd (V c main_arg0 : S50000x64.Idx → EReal) (V c main_arg2 : S64x128.Idx → EReal) (V c main_v11 : S50000x1.Idx → EReal)) := by
  show (cfg0.win 3).cut (grid0.coords t) ((dat0 V c).after 3 t) = _
  rw [after0_3]
  unfold out0_3
  rw [View.canon_unit_zero zeroOff]
  simp only [View.ld_unit_zero (S := S5000x64) zeroOff, View.ld_unit_zero (S := S64x128) zeroOff, View.ld_unit_zero (S := S5000x1) zeroOff]
  funext j
  obtain ⟨e00, e01, e10, e11, e20, e21, e30, e31⟩ := blockIdx0 t
  have hp : (j 0).val < 5000 := (j 0).isLt
  have hq : (j 1).val < 128 := (j 1).isLt
  have ht : t.val < 10 := lt_of_lt_of_eq t.isLt N_0
  refine blockValue0 _ _ _ (iblk0 V c 0 t) (iblk0 V c 1 t) (iblk0 V c 2 t) ⟨(j 0).val, hp⟩ ⟨(j 1).val, hq⟩
    ⟨t.val * 5000 + (j 0).val, by omega⟩ (fun k => ?_) (fun k => ?_) ?_ _ rfl rfl _ ?_ ?_
  · show V c main_arg0 (((cfg0.win 0).blk t).view.emb _) = V c main_arg0 _
    refine congrArg _ (funext fun a => Fin.ext ?_)
    match a with
    | ⟨0, _⟩ => show win0_0.index t (0 : Fin 2) * 5000 + 1 * (j 0).val = t.val * 5000 + (j 0).val; rw [e00]; omega
    | ⟨1, _⟩ => show win0_0.index t (1 : Fin 2) * 64 + 1 * k.val = k.val; rw [e01]; omega
  · show V c main_arg2 (((cfg0.win 1).blk t).view.emb _) = V c main_arg2 _
    refine congrArg _ (funext fun a => Fin.ext ?_)
    match a with
    | ⟨0, _⟩ => show win0_1.index t (0 : Fin 2) * 64 + 1 * k.val = k.val; rw [e10]; omega
    | ⟨1, _⟩ => show win0_1.index t (1 : Fin 2) * 128 + 1 * (j 1).val = (j 1).val; rw [e11]; omega
  · show V c main_v11 (((cfg0.win 2).blk t).view.emb _) = V c main_v11 _
    refine congrArg _ (funext fun a => Fin.ext ?_)
    match a with
    | ⟨0, _⟩ => show win0_2.index t (0 : Fin 2) * 5000 + 1 * (j 0).val = t.val * 5000 + (j 0).val; rw [e20]; omega
    | ⟨1, _⟩ => show win0_2.index t (1 : Fin 2) * 1 + 1 * 0 = 0; rw [e21]
  · show win0_3.index t (0 : Fin 2) * 5000 + 1 * (j 0).val = t.val * 5000 + (j 0).val; rw [e30]; omega
  · show win0_3.index t (1 : Fin 2) * 128 + 1 * (j 1).val = (j 1).val; rw [e31]; omega

/-- An index of the output array is in grid point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- Every row is some grid point's: row r is written by point r / 5000. -/
theorem covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e30, e31⟩ := blockIdx0 t
  have etv : t.val = (i 0).val / 5000 := rfl
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; rw [e30, etv]; omega
  | ⟨1, _⟩ => show win0_3.index t (1 : Fin 2) * 128 ≤ (i 1).val ∧ (i 1).val < win0_3.index t (1 : Fin 2) * 128 + 128; rw [e31]; omega

/-- The region's output array, after its ten grid points: the scaled product of the arrays the region finds. -/
theorem region0_value (c : Dev nD) :
    ((Gen.dat0 (F := Ideal) V c).arrAt 3 cfg0.N : S50000x128.Idx → EReal)
      = Cert.Spec.scaledProd (V c main_arg0 : S50000x64.Idx → EReal) (V c main_arg2 : S64x128.Idx → EReal) (V c main_v11 : S50000x1.Idx → EReal) :=
  (dat0 (F := Ideal) V c).arrAt_eq_of_cover 3 _ (fun t _ => flushed0_eq V c t) (covered0)
end

end Cert.KernelIdeal.RegionValue

end
-- ==== Proof.RegionValue1.lean ====
/-
  The second dense stage as a whole-array function. The stage runs over ten grid points; point t works on rows
  5000·t … 5000·t + 4999: it reads those rows of the node-feature array, the whole 128×64 weight matrix and those rows
  of the one-column scale array, and writes back those rows of the output. Since row p of block t is row 5000·t + p of
  the array, what point t writes back is that block of the scaled product (X · W)(r, f) · D(r, 0); the ten blocks cover
  the 50000 rows (row r belongs to point r / 5000), so after the last point the output array is the scaled product of
  the arrays the stage found, whatever those are.
-/
import proofs.«116535_j22385369547414_2_alg».proof.Proof.RegionPayload
import proofs.«116535_j22385369547414_2_alg».proof.Proof.Spec

noncomputable section

open scoped BigOperators
open Idealize.ShloMosaic Idealize.ShloMosaic.TcCoe Idealize.SL.Sem
open Idealize.ShloMosaic.ValueIdx
open Idealize.ShloMosaic.Pipeline (Dat)

namespace Cert.KernelIdeal.RegionValue

open Cert.KernelIdeal Cert.KernelIdeal.Gen

/-- The arithmetic of one block entry. If row p of the left block is row r of the whole left array, the weights block is
    the whole weight matrix and the one-column block's entry for p is the column array's entry for r, then what the body
    stores at (p, q) is the scaled product at (r, q). -/
theorem blockValue1 (X : S50000x128.Idx → EReal) (W : S128x64.Idx → EReal) (D : S50000x1.Idx → EReal)
    (x0 : Vec Ideal S5000x128 .f32) (x1 : Vec Ideal S128x64 .f32) (x2 : Vec Ideal S5000x1 .f32)
    (p : Fin 5000) (q : Fin 64) (r : Fin 50000)
    (h0 : ∀ k : Fin 128, x0 (ix2 p k) = X (ix2 r k))
    (h1 : ∀ k : Fin 128, x1 (ix2 k q) = W (ix2 k q))
    (h2 : x2 (ix2 p (0 : Fin 1)) = D (ix2 r (0 : Fin 1)))
    (y : S5000x64.Idx) (hy0 : (y 0).val = p.val) (hy1 : (y 1).val = q.val)
    (i : S50000x64.Idx) (hi0 : (i 0).val = r.val) (hi1 : (i 1).val = q.val) :
    Gen.k1_pay1 x0 x1 x2 y = Cert.Spec.scaledProd X W D i := by
  obtain rfl : y = ix2 p q := funext fun a => Fin.ext (by
    match a with
    | ⟨0, _⟩ => exact hy0
    | ⟨1, _⟩ => exact hy1)
  have er : Cert.Spec.row i = r := Fin.ext hi0
  have ec : Cert.Spec.col i = q := Fin.ext hi1
  rw [k1_pay1_apply, Cert.Spec.scaledProd_apply, er, ec, h2]
  exact congrArg (· * _) (Finset.sum_congr rfl fun k _ => by rw [h0 k, h1 k])

section
variable (V : (c : Dev nD) → (b : Ref sig .tc) → Buf (Elt Ideal) ((c : Thread nD τ).loc b))

/-- The windows' index maps at the ten grid points: the row-blocked windows sit at block row t, block column 0; the
    weights' window at block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point t writes back is rows 5000·t … 5000·t + 4999 of the scaled product of the arrays the region finds. -/
theorem flushed1_eq (c : Dev nD) (t : Fin cfg1.N) :
    (dat1 (F := Ideal) V c).flushed 3 t = ((cfg1.win 3).blk t).view.read (Elt Ideal)
      (Cert.Spec.scaledProd (V c main_v31 : S50000x128.Idx → EReal) (V c main_arg4 : S128x64.Idx → EReal) (V c main_v11 : S50000x1.Idx → EReal)) := by
  show (cfg1.win 3).cut (grid1.coords t) ((dat1 V c).after 3 t) = _
  rw [after1_3]
  unfold out1_3
  rw [View.canon_unit_zero zeroOff]
  simp only [View.ld_unit_zero (S := S5000x128) zeroOff, View.ld_unit_zero (S := S128x64) zeroOff, View.ld_unit_zero (S := S5000x1) zeroOff]
  funext j
  obtain ⟨e00, e01, e10, e11, e20, e21, e30, e31⟩ := blockIdx1 t
  have hp : (j 0).val < 5000 := (j 0).isLt
  have hq : (j 1).val < 64 := (j 1).isLt
  have ht : t.val < 10 := lt_of_lt_of_eq t.isLt N_1
  refine blockValue1 _ _ _ (iblk1 V c 0 t) (iblk1 V c 1 t) (iblk1 V c 2 t) ⟨(j 0).val, hp⟩ ⟨(j 1).val, hq⟩
    ⟨t.val * 5000 + (j 0).val, by omega⟩ (fun k => ?_) (fun k => ?_) ?_ _ rfl rfl _ ?_ ?_
  · show V c main_v31 (((cfg1.win 0).blk t).view.emb _) = V c main_v31 _
    refine congrArg _ (funext fun a => Fin.ext ?_)
    match a with
    | ⟨0, _⟩ => show win1_0.index t (0 : Fin 2) * 5000 + 1 * (j 0).val = t.val * 5000 + (j 0).val; rw [e00]; omega
    | ⟨1, _⟩ => show win1_0.index t (1 : Fin 2) * 128 + 1 * k.val = k.val; rw [e01]; omega
  · show V c main_arg4 (((cfg1.win 1).blk t).view.emb _) = V c main_arg4 _
    refine congrArg _ (funext fun a => Fin.ext ?_)
    match a with
    | ⟨0, _⟩ => show win1_1.index t (0 : Fin 2) * 128 + 1 * k.val = k.val; rw [e10]; omega
    | ⟨1, _⟩ => show win1_1.index t (1 : Fin 2) * 64 + 1 * (j 1).val = (j 1).val; rw [e11]; omega
  · show V c main_v11 (((cfg1.win 2).blk t).view.emb _) = V c main_v11 _
    refine congrArg _ (funext fun a => Fin.ext ?_)
    match a with
    | ⟨0, _⟩ => show win1_2.index t (0 : Fin 2) * 5000 + 1 * (j 0).val = t.val * 5000 + (j 0).val; rw [e20]; omega
    | ⟨1, _⟩ => show win1_2.index t (1 : Fin 2) * 1 + 1 * 0 = 0; rw [e21]
  · show win1_3.index t (0 : Fin 2) * 5000 + 1 * (j 0).val = t.val * 5000 + (j 0).val; rw [e30]; omega
  · show win1_3.index t (1 : Fin 2) * 64 + 1 * (j 1).val = (j 1).val; rw [e31]; omega

/-- An index of the output array is in grid point t's block iff each coordinate is in the block's range on its axis. -/
theorem mem_block1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v32).slice (win1_3.rect t)).set ↔ _
  rw [View.set_slice_whole, Rect.mem_set_unit]
  exact Iff.rfl

/-- Every row is some grid point's: row r is written by point r / 5000. -/
theorem covered1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, e30, e31⟩ := blockIdx1 t
  have etv : t.val = (i 0).val / 5000 := rfl
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; rw [e30, etv]; omega
  | ⟨1, _⟩ => show win1_3.index t (1 : Fin 2) * 64 ≤ (i 1).val ∧ (i 1).val < win1_3.index t (1 : Fin 2) * 64 + 64; rw [e31]; omega

/-- The region's output array, after its ten grid points: the scaled product of the arrays the region finds. -/
theorem region1_value (c : Dev nD) :
    ((Gen.dat1 (F := Ideal) V c).arrAt 3 cfg1.N : S50000x64.Idx → EReal)
      = Cert.Spec.scaledProd (V c main_v31 : S50000x128.Idx → EReal) (V c main_arg4 : S128x64.Idx → EReal) (V c main_v11 : S50000x1.Idx → EReal) :=
  (dat1 (F := Ideal) V c).arrAt_eq_of_cover 3 _ (fun t _ => flushed1_eq V c t) (covered1)
end

end Cert.KernelIdeal.RegionValue

end
-- ==== Proof.KRun.lean ====
/-
  The kernel program's run with its result named as a function of the six arguments. The buffer contents at
  each boundary of the program are read back one boundary at a time: the first stretch leaves the edges'
  endpoints and the inverse square-root degrees; the first dense region leaves the scaled product of the features
  with the first weights; the next stretches aggregate it along the edges, add the self-loop and the bias and
  clamp at zero; the second dense region and the last stretches do the same at the second layer. The run's
  final state has the result buffer at the last boundary's contents, hence at that function of the arguments.
-/
import proofs.«116535_j22385369547414_2_alg».proof.Proof.Gen.KernelIdeal.Frame
import proofs.«116535_j22385369547414_2_alg».proof.Proof.KTerms
import proofs.«116535_j22385369547414_2_alg».proof.Proof.KRunNamed
import proofs.«116535_j22385369547414_2_alg».proof.Proof.KStagesA
import proofs.«116535_j22385369547414_2_alg».proof.Proof.KStagesB
import proofs.«116535_j22385369547414_2_alg».proof.Proof.RegionValue0
import proofs.«116535_j22385369547414_2_alg».proof.Proof.RegionValue1

set_option maxRecDepth 16384

noncomputable section

namespace Cert.KernelIdeal.KRun

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Across the first dense region -/

/-- The buffers the first dense region does not touch hold at its exit what the first stretch left. -/
theorem W2_v1 (c : Dev nD) :
    (W2 m ρ c (Proc.devRef .tc main_v1) : IVec S1600000 32) = KTerms.srcOf (m ((c.tc : Thread nD τ).loc main_arg1)) :=
  (W2_of_ne m ρ c main_v1 (by decide)).trans (W1_v1 m ρ c)
theorem W2_v3 (c : Dev nD) :
    (W2 m ρ c (Proc.devRef .tc main_v3) : IVec S1600000 32) = KTerms.dstOf (m ((c.tc : Thread nD τ).loc main_arg1)) :=
  (W2_of_ne m ρ c main_v3 (by decide)).trans (W1_v3 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
/-- The inverse square-root degrees are an input array of the region: the region leaves an input as it found it. -/
theorem W2_v11 (c : Dev nD) :
    (W2 m ρ c (Proc.devRef .tc main_v11) : FVec Ideal S50000x1 .f32)
      = KTerms.disCol (KTerms.dstOf (m ((c.tc : Thread nD τ).loc main_arg1))) :=
  ((W2_arr m ρ c 2).trans (((dat0 (V1 m ρ) c).arrAt_in 2 rfl _).trans (A_eq0 (V1 m ρ) c 2))).trans (W1_v11 m ρ c)

/-- The first dense region's output array: the scaled product of the features with the first weights. -/
theorem W2_v12 (c : Dev nD) :
    (W2 m ρ c (Proc.devRef .tc main_v12) : FVec Ideal S50000x128 .f32)
      = Cert.Spec.scaledProd (m ((c.tc : Thread nD τ).loc main_arg0) : S50000x64.Idx → EReal)
          (m ((c.tc : Thread nD τ).loc main_arg2) : S64x128.Idx → EReal)
          (KTerms.disCol (KTerms.dstOf (m ((c.tc : Thread nD τ).loc main_arg1)))) := by
  refine (W2_arr m ρ c 3).trans ((RegionValue.region0_value (V1 m ρ) c).trans ?_)
  dsimp only [V1]
  rw [W1_arg0 m ρ c, W1_arg2 m ρ c, W1_v11 m ρ c]

/-! ## The first layer's result -/

theorem W4_v31 (c : Dev nD) :
    (W4 m ρ c (Proc.devRef .tc main_v31) : FVec Ideal S50000x128 .f32)
      = KTerms.hidden (m ((c.tc : Thread nD τ).loc main_arg0)) (m ((c.tc : Thread nD τ).loc main_arg1))
          (m ((c.tc : Thread nD τ).loc main_arg2)) (m ((c.tc : Thread nD τ).loc main_arg3)) := by
  rw [W4_v31_rel m ρ c, W2_v12 m ρ c, W2_v11 m ρ c, W2_v1 m ρ c, W2_v3 m ρ c, W2_arg3 m ρ c]
  rfl

/-! ## Across the second dense region -/

theorem W5_v1 (c : Dev nD) :
    (W5 m ρ c (Proc.devRef .tc main_v1) : IVec S1600000 32) = KTerms.srcOf (m ((c.tc : Thread nD τ).loc main_arg1)) :=
  (W5_of_ne m ρ c main_v1 (by decide)).trans ((W4_v1 m ρ c).trans (W2_v1 m ρ c))
theorem W5_v3 (c : Dev nD) :
    (W5 m ρ c (Proc.devRef .tc main_v3) : IVec S1600000 32) = KTerms.dstOf (m ((c.tc : Thread nD τ).loc main_arg1)) :=
  (W5_of_ne m ρ c main_v3 (by decide)).trans ((W4_v3 m ρ c).trans (W2_v3 m ρ c))
theorem W5_arg5 (c : Dev nD) : W5 m ρ c (Proc.devRef .tc main_arg5) = m ((c.tc : Thread nD τ).loc main_arg5) :=
  (W5_of_ne m ρ c main_arg5 (by decide)).trans ((W4_arg5 m ρ c).trans (W2_arg5 m ρ c))
theorem W5_v11 (c : Dev nD) :
    (W5 m ρ c (Proc.devRef .tc main_v11) : FVec Ideal S50000x1 .f32)
      = KTerms.disCol (KTerms.dstOf (m ((c.tc : Thread nD τ).loc main_arg1))) :=
  ((W5_arr m ρ c 2).trans (((dat1 (V4 m ρ) c).arrAt_in 2 rfl _).trans (A_eq1 (V4 m ρ) c 2))).trans
    ((W4_v11 m ρ c).trans (W2_v11 m ρ c))

/-- The second dense region's output array: the scaled product of the first layer's result with the second
    weights. -/
theorem W5_v32 (c : Dev nD) :
    (W5 m ρ c (Proc.devRef .tc main_v32) : FVec Ideal S50000x64 .f32)
      = Cert.Spec.scaledProd
          (KTerms.hidden (m ((c.tc : Thread nD τ).loc main_arg0)) (m ((c.tc : Thread nD τ).loc main_arg1))
            (m ((c.tc : Thread nD τ).loc main_arg2)) (m ((c.tc : Thread nD τ).loc main_arg3)) : S50000x128.Idx → EReal)
          (m ((c.tc : Thread nD τ).loc main_arg4) : S128x64.Idx → EReal)
          (KTerms.disCol (KTerms.dstOf (m ((c.tc : Thread nD τ).loc main_arg1)))) := by
  refine (W5_arr m ρ c 3).trans ((RegionValue.region1_value (V4 m ρ) c).trans ?_)
  dsimp only [V4]
  rw [W4_v31 m ρ c, (W4_arg4 m ρ c).trans (W2_arg4 m ρ c), (W4_v11 m ρ c).trans (W2_v11 m ρ c)]

/-! ## The result -/

theorem W7_v51 (c : Dev nD) :
    (W7 m ρ c (Proc.devRef .tc main_v51) : FVec Ideal S50000x64 .f32)
      = KTerms.kOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [W7_v51_rel m ρ c, W5_v32 m ρ c, W5_v11 m ρ c, W5_v1 m ρ c, W5_v3 m ρ c, W5_arg5 m ρ c]
  rfl

/-- THE KERNEL PROGRAM'S RUN: at the compiled mesh, from any memory with zero counters, every weakly fair
    execution terminates, nothing faulting, and every final state has the result buffer at the program's named
    function of its six arguments and each argument array as launched. -/
theorem kernel_run :
    θ_run (defs (F := Ideal)) (onTc (τ := τ) (main (F := Ideal))) ⟨m, fun _ => 0, ρ⟩ (fun r => ∀ c : Dev nD,
      r.2.mem ((c.tc : Thread nD τ).loc main_v51)
          = KTerms.kOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v51 m ρ c), (h c).2⟩) (run_named m ρ)

end Cert.KernelIdeal.KRun

end
-- ==== Proof.RTerms.lean ====
/-
  The reference program's result as a composition of named stages: the edges' endpoints, each node's inverse
  square-root degree, the per-edge coefficient (the product of the two endpoints' inverse square-root
  degrees), and one graph convolution: the dense product, gathered at each edge's source, scaled by the
  edge's coefficient and added up at the edge's destination, plus the node's own product scaled by its
  squared inverse square-root degree (the self-loop), plus the bias; then the clamp at zero. The reference
  applies the convolution twice.
-/
import proofs.«116535_j22385369547414_2_alg».proof.Proof.Gen.ReferenceIdeal.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

/-- The sources of the edges: row 0 of the edge list. -/
def srcOf (ei : IVec S2x1600000 32) : IVec S1600000 32 :=
  shapeCast _ (extractStridedSlice S1x1600000 ![0, 0] ei slices_S2x1600000_S1x1600000_0_0) shapeCasts_S1x1600000_S1600000

/-- The destinations of the edges: row 1 of the edge list. -/
def dstOf (ei : IVec S2x1600000 32) : IVec S1600000 32 :=
  shapeCast _ (extractStridedSlice S1x1600000 ![1, 0] ei slices_S2x1600000_S1x1600000_1_0) shapeCasts_S1x1600000_S1600000

/-- A negative index counts from the end of the 50000 nodes. -/
def wrapIdx (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- Each node's inverse square-root degree: one (the self-loop) plus the number of edges arriving at it. -/
def disOf (dst : IVec S1600000 32) : FVec Ideal S50000 .f32 :=
  Host.rsqrt (addf (broadcastInDim S50000 ![] bcast_S_S50000 (constant S_ .f32 0x3F800000#32))
    (Host.scatterAdd scatter_S50000_S1600000x1_S1600000_n_0_0_1
      (broadcastInDim S50000 ![] bcast_S_S50000 (constant S_ .f32 0x00000000#32))
      (broadcastInDim S1600000x1 ![0] bcast_S1600000_S1600000x1_0 dst)
      (broadcastInDim S1600000 ![] bcast_S_S1600000 (constant S_ .f32 0x3F800000#32))))

/-- The per-edge coefficient: the product of the inverse square-root degrees at the edge's two endpoints. -/
def edgeCoef (src dst : IVec S1600000 32) : FVec Ideal S1600000 .f32 :=
  mulf (Host.gather gather_S50000_S1600000x1_S1600000_n_0_n_n_0_1_1 (disOf dst)
      (broadcastInDim S1600000x1 ![0] bcast_S1600000_S1600000x1_0 (wrapIdx src)))
    (Host.gather gather_S50000_S1600000x1_S1600000_n_0_n_n_0_1_1 (disOf dst)
      (broadcastInDim S1600000x1 ![0] bcast_S1600000_S1600000x1_0 (wrapIdx dst)))

/-- One graph convolution onto 128 features, before the clamp, from the dense product `H`. -/
def conv128 (H : FVec Ideal S50000x128 .f32) (src dst : IVec S1600000 32) (b : FVec Ideal S128 .f32) : FVec Ideal S50000x128 .f32 :=
  addf
    (addf
      (Host.scatterAdd scatter_S50000x128_S1600000x1_S1600000x128_1_0_0_1
        (broadcastInDim S50000x128 ![] bcast_S_S50000x128 (constant S_ .f32 0x00000000#32))
        (broadcastInDim S1600000x1 ![0] bcast_S1600000_S1600000x1_0 dst)
        (mulf
          (Host.gather gather_S50000x128_S1600000x1_S1600000x128_1_0_n_n_0_1_1128 H
            (broadcastInDim S1600000x1 ![0] bcast_S1600000_S1600000x1_0 (wrapIdx src)))
          (broadcastInDim S1600000x128 ![0, 1] bcast_S1600000x1_S1600000x128_0_1
            (broadcastInDim S1600000x1 ![0] bcast_S1600000_S1600000x1_0 (edgeCoef src dst)))))
      (mulf H
        (broadcastInDim S50000x128 ![0, 1] bcast_S50000x1_S50000x128_0_1
          (broadcastInDim S50000x1 ![0] bcast_S50000_S50000x1_0 (mulf (disOf dst) (disOf dst))))))
    (broadcastInDim S50000x128 ![0, 1] bcast_S1x128_S50000x128_0_1 (broadcastInDim S1x128 ![1] bcast_S128_S1x128_1 b))

/-- One graph convolution onto 64 features, before the clamp, from the dense product `H`. -/
def conv64 (H : FVec Ideal S50000x64 .f32) (src dst : IVec S1600000 32) (b : FVec Ideal S64 .f32) : FVec Ideal S50000x64 .f32 :=
  addf
    (addf
      (Host.scatterAdd scatter_S50000x64_S1600000x1_S1600000x64_1_0_0_1
        (broadcastInDim S50000x64 ![] bcast_S_S50000x64 (constant S_ .f32 0x00000000#32))
        (broadcastInDim S1600000x1 ![0] bcast_S1600000_S1600000x1_0 dst)
        (mulf
          (Host.gather gather_S50000x64_S1600000x1_S1600000x64_1_0_n_n_0_1_164 H
            (broadcastInDim S1600000x1 ![0] bcast_S1600000_S1600000x1_0 (wrapIdx src)))
          (broadcastInDim S1600000x64 ![0, 1] bcast_S1600000x1_S1600000x64_0_1
            (broadcastInDim S1600000x1 ![0] bcast_S1600000_S1600000x1_0 (edgeCoef src dst)))))
      (mulf H
        (broadcastInDim S50000x64 ![0, 1] bcast_S50000x1_S50000x64_0_1
          (broadcastInDim S50000x1 ![0] bcast_S50000_S50000x1_0 (mulf (disOf dst) (disOf dst))))))
    (broadcastInDim S50000x64 ![0, 1] bcast_S1x64_S50000x64_0_1 (broadcastInDim S1x64 ![1] bcast_S64_S1x64_1 b))

/-- The first layer: the convolution of the product of the features with the first weights, clamped at zero. -/
def hidden (x : FVec Ideal S50000x64 .f32) (ei : IVec S2x1600000 32) (W1 : FVec Ideal S64x128 .f32) (b1 : FVec Ideal S128 .f32) :
    FVec Ideal S50000x128 .f32 :=
  maximumf (conv128 (Host.dotGeneral dot_S50000x64_S64x128_S50000x128_1_0_0_1_n_n none x W1) (srcOf ei) (dstOf ei) b1)
    (broadcastInDim S50000x128 ![] bcast_S_S50000x128 (constant S_ .f32 0x00000000#32))

/-- The reference's result as one function of its six arguments. -/
def rOut (x : FVec Ideal S50000x64 .f32) (ei : IVec S2x1600000 32) (W1 : FVec Ideal S64x128 .f32) (b1 : FVec Ideal S128 .f32)
    (W2 : FVec Ideal S128x64 .f32) (b2 : FVec Ideal S64 .f32) : FVec Ideal S50000x64 .f32 :=
  maximumf (conv64 (Host.dotGeneral dot_S50000x128_S128x64_S50000x64_1_0_0_1_n_n none (hidden x ei W1 b1) W2) (srcOf ei) (dstOf ei) b2)
    (broadcastInDim S50000x64 ![] bcast_S_S50000x64 (constant S_ .f32 0x00000000#32))

set_option maxRecDepth 65536 in
set_option maxHeartbeats 4000000 in
/-- The generated run's composed term is this composition: both are the program's operations in order. -/
theorem res_eq (m : (ℓ : Loc nD τ sig) → Buf (Elt Ideal) ℓ) (c : Dev nD) :
    Cert.ReferenceIdeal.Value.res_main_v97 (F := Ideal) m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v97 rOut hidden conv64 conv128 edgeCoef disOf wrapIdx srcOf dstOf
  rfl

end Cert.ReferenceIdeal.RefValue

end
-- ==== Proof.Assembly.lean ====
/-
  The five parts of the claim. The three programs run and leave their argument arrays as launched: the kernel
  program at the bit-exact instance and at the ideal instance by its frame, the reference at the ideal instance
  by its run with the result dropped. The idealization rewrote no operation, so there is nothing it has to
  preserve. At the ideal instance, from memories that agree on the arguments, the kernel program's result is
  its named function of the six arguments and the reference's result is its own named function of the same
  arguments; the two functions are equal, index by index, as extended reals.
-/
import proofs.«116535_j22385369547414_2_alg».proof.Defs
import proofs.«116535_j22385369547414_2_alg».proof.Proof.Gen.Kernel
import proofs.«116535_j22385369547414_2_alg».proof.Proof.Gen.Kernel.Frame
import proofs.«116535_j22385369547414_2_alg».proof.Proof.Gen.KernelIdeal
import proofs.«116535_j22385369547414_2_alg».proof.Proof.Gen.KernelIdeal.Frame
import proofs.«116535_j22385369547414_2_alg».proof.Proof.Gen.ReferenceIdeal
import proofs.«116535_j22385369547414_2_alg».proof.Proof.Gen.ReferenceIdeal.Run
import proofs.«116535_j22385369547414_2_alg».proof.Proof.Gen.Pre_finite_inputs
import proofs.«116535_j22385369547414_2_alg».proof.Proof.KRun
import proofs.«116535_j22385369547414_2_alg».proof.Proof.RTerms

noncomputable section

namespace Cert.Proof.Parts

open Idealize.ShloMosaic Idealize.SL.Sem

/-- The kernel program as printed runs and leaves its arguments as launched. -/
theorem frame_k : Cert.frame_Kernel := fun m ρ _ => Cert.Kernel.Gen.frame m ρ

/-- The kernel program read at the ideal instance runs and leaves its arguments as launched. -/
theorem frame_ki : Cert.frame_KernelIdeal := fun m ρ _ => Cert.KernelIdeal.Gen.frame m ρ

/-- The reference at the ideal instance runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the program. -/
theorem preserves : Cert.preserves_Kernel_KernelIdeal := trivial

/-- At the ideal instance the kernel program's result buffer ends at its named function of the six arguments
    and the reference's at its own named function of arguments that agree with them: given that the two
    functions are equal, both runs end with the same result, and each leaves its arguments as launched. -/
theorem algebraic_of
    (bridge : ∀ (x : FVec Ideal Cert.ReferenceIdeal.S50000x64 .f32) (ei : IVec Cert.ReferenceIdeal.S2x1600000 32)
      (W1 : FVec Ideal Cert.ReferenceIdeal.S64x128 .f32) (b1 : FVec Ideal Cert.ReferenceIdeal.S128 .f32)
      (W2 : FVec Ideal Cert.ReferenceIdeal.S128x64 .f32) (b2 : FVec Ideal Cert.ReferenceIdeal.S64 .f32),
      Cert.KernelIdeal.KTerms.kOut x ei W1 b1 W2 b2 = Cert.ReferenceIdeal.RefValue.rOut x ei W1 b1 W2 b2) :
    Cert.algebraic_KernelIdeal_ReferenceIdeal := by
  intro m ρ m' ρ' _ hagree
  refine ⟨fun c => Cert.KernelIdeal.KTerms.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KRun.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c, (hagree c).1, (hagree c).2.1, (hagree c).2.2.1, (hagree c).2.2.2.1,
    (hagree c).2.2.2.2.1, (hagree c).2.2.2.2.2]
  exact (bridge _ _ _ _ _ _).symm

end Cert.Proof.Parts

end
-- ==== Proof.LibRowGatherScatter.lean ====
import Idealize.ShloMosaic.Lib.ValueIdx

/-!
# Row gathers and row scatters of a two-dimensional array along its first axis

What `h[src]` (rows of `h : [N, C]` picked by an integer vector `src : [E]`), `v[src]` (entries of `v : [N]`) and
`out.at[dst].add(m)` (rows of `m : [E, C]` accumulated into rows of `out : [N, C]`) mean as a gather and a scatter
whose start indices have been given a trailing axis of size one, `[E, 1]`, the index vector's axis.

* A gather CLAMPS its start index: result row `e` is operand row `min (max src[e] 0) (N - 1)`, the start index being
  read as a signed integer (the `toNat` of a negative integer is `0`).
* A scatter does NOT clamp: update row `e` lands on operand row `dst[e]` (read signed) when `0 ≤ dst[e] < N`, and is
  dropped otherwise. So an update that lands on row `r` has `dst[e] = r` exactly.
-/

open Idealize.ShloMosaic Idealize.ShloMosaic.ValueIdx

namespace Cert.Lib

/-! ## Gathering rows of `[N, C]` at start indices `[E, 1]` -/

section RowGather
variable {α : Type}

/-- The dimension numbers of a row gather: operand `[N, C]`, start indices `[E, 1]` (axis 1 the index vector's, of
    size one), result `[E, C]`. The one component of a start index addresses operand axis 0, which is collapsed (the
    slice has one row); operand axis 1 is taken whole (slice size `C`) and becomes result axis 1, the offset axis. The
    conditions `wf` on these numbers are decided once the extents are literals. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

set_option maxHeartbeats 400000 in
/-- THE ROW GATHER READ AT `(e, f)`: the operand at row `min (idx[e, 0] read signed, negatives to 0) (N − 1)` and
    column `f`. On axis 0 the operand coordinate is the clamped start index alone (that axis is collapsed, so it has
    no offset coordinate); on axis 1 the start is `0` (the start index has no component for it) and the offset
    coordinate is the result's column `f`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) =
      x (ix2 (⟨min (idx (ix2 e (0 : Fin 1))).toInt.toNat (N - 1), by omega⟩ : Fin N) f) := by
  unfold Host.gather
  congr 1
  funext a
  refine Fin.ext ?_
  show (rowGatherDims N E C wf).start (ix2 e f) idx a + (rowGatherDims N E C wf).batchCoord (ix2 e f) a
    + (rowGatherDims N E C wf).offCoord (ix2 e f) a = _
  rw [GatherDims.batchCoord_eq_zero _ _ _ List.not_mem_nil, Nat.add_zero]
  -- the start indices are read at `[e, 0]`: the result's batch coordinate `e`, and the only place on the index vector's axis
  have hsi : ∀ c, (rowGatherDims N E C wf).siIdx (ix2 e f) c = ix2 e (0 : Fin 1) := by
    intro c; funext b; refine Fin.ext ?_
    match b with
    | ⟨0, _⟩ => rfl
    | ⟨1, _⟩ => exact Nat.lt_one_iff.mp c.isLt
  match a with
  | ⟨0, h0⟩ =>
    have hm : (⟨0, h0⟩ : Fin 2) ∈ (rowGatherDims N E C wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hm, hsi]
    rfl
  | ⟨1, h1⟩ =>
    have hs : (rowGatherDims N E C wf).start (ix2 e f) idx ⟨1, h1⟩ = 0 := by
      unfold GatherDims.start
      rw [dif_neg (fun h => Nat.one_ne_zero (congrArg Fin.val (List.mem_singleton.mp h)))]
    have hm : (⟨1, h1⟩ : Fin 2) ∈ (rowGatherDims N E C wf).sKept :=
      (GatherDims.mem_sKept _ _).mpr
        ⟨fun h => Nat.one_ne_zero (congrArg Fin.val (List.mem_singleton.mp h)), List.not_mem_nil⟩
    rw [hs, Nat.zero_add]
    unfold GatherDims.offCoord
    rw [dif_pos hm]
    rfl

end RowGather

/-! ## Gathering entries of `[N]` at start indices `[E, 1]` -/

section VecGather
variable {α : Type}

/-- The dimension numbers of an entry gather: operand `[N]`, start indices `[E, 1]` (axis 1 the index vector's),
    result `[E]`. The one component of a start index addresses operand axis 0, which is collapsed; there is no offset
    axis. The conditions `wf` are decided once the extents are literals. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

set_option maxHeartbeats 400000 in
/-- THE ENTRY GATHER READ AT `e`: the operand at `min (idx[e, 0] read signed, negatives to 0) (N − 1)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hsi : ∀ c, (vecGatherDims N E wf).siIdx (ix1 e) c = ix2 e (0 : Fin 1) := by
    intro c; funext b; refine Fin.ext ?_
    match b with
    | ⟨0, _⟩ => rfl
    | ⟨1, _⟩ => exact Nat.lt_one_iff.mp c.isLt
  unfold GatherDims.start
  rw [dif_pos (show (0 : Fin 1) ∈ (vecGatherDims N E wf).startIndexMap from List.mem_singleton.mpr rfl), hsi]
  rfl

end VecGather

/-! ## Scattering rows `[E, C]` into `[N, C]` at scatter indices `[E, 1]` -/

section RowScatter

/-- The dimension numbers of a row scatter: operand `[N, C]`, scatter indices `[E, 1]` (axis 1 the index vector's),
    updates `[E, C]`. The one component of a scatter index addresses operand axis 0, which is an inserted window axis
    (an update row covers one operand row); update axis 1 is the window axis and goes to operand axis 1. The conditions
    `wf` are decided once the extents are literals. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter indices are read at `[e, 0]` for update `(e, f)`: the update's scatter coordinate `e`, and the only
    place on the index vector's axis. -/
theorem rowScatter_siIdx {N E C : Nat}
    (wf : ScatterDims.WF ⟨2, ![N, C]⟩ ⟨2, ![E, 1]⟩ ⟨2, ![E, C]⟩ [1] [0] [0] 1)
    (j : (⟨2, ![E, C]⟩ : Shape).Idx) (c : Fin (rowScatterDims N E C wf).scatterDimsToOperandDims.length) :
    (rowScatterDims N E C wf).siIdx j c = ix2 (⟨(j 0).val, idx2_lt0 j⟩ : Fin E) (0 : Fin 1) := by
  funext b; refine Fin.ext ?_
  match b with
  | ⟨0, _⟩ => rfl
  | ⟨1, _⟩ => exact Nat.lt_one_iff.mp c.isLt

/-- On operand axis 0 the window of update `(e, f)` starts at the scatter index `idx[e, 0]`, read signed and not
    clamped. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx (0 : Fin 2)
      = (idx (ix2 (⟨(j 0).val, idx2_lt0 j⟩ : Fin E) (0 : Fin 1))).toInt := by
  unfold ScatterDims.start
  rw [dif_pos (show (0 : Fin 2) ∈ (rowScatterDims N E C wf).scatterDimsToOperandDims from List.mem_singleton.mpr rfl),
    rowScatter_siIdx]

/-- On operand axis 1 the window starts at `0`: a scatter index has no component for that axis. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx (1 : Fin 2) = 0 := by
  unfold ScatterDims.start
  rw [dif_neg (fun h => Nat.one_ne_zero (congrArg Fin.val (List.mem_singleton.mp h)))]

/-- The window coordinate on operand axis 0 is `0` (the axis is inserted: an update row is one operand row). -/
theorem rowScatter_window_zero {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j (0 : Fin 2) = 0 := by
  unfold ScatterDims.window
  rw [dif_neg]
  intro hm
  have := (List.mem_filter.mp hm).2
  simp at this

/-- The window coordinate on operand axis 1 is the update's column. -/
theorem rowScatter_window_one {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j (1 : Fin 2) = (j 1).val := by
  have hm : (1 : Fin 2) ∈ (rowScatterDims N E C wf).sKept := by
    refine List.mem_filter.mpr ⟨List.mem_finRange _, ?_⟩
    simp
  unfold ScatterDims.window
  rw [dif_pos hm]
  rfl

set_option maxHeartbeats 400000 in
/-- WHERE A ROW SCATTER'S UPDATE LANDS: if update `(e, f)` lands on operand element `(r, f')`, then the scatter index
    `idx[e, 0]`, read signed, is exactly `r` (no clamping: an index outside `[0, N)` drops the update instead), and
    `f = f'`. The landing row is `start + window = idx[e, 0] + 0` on axis 0, known to be non-negative, and the landing
    column is `0 + f` on axis 1. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (⟨(j 0).val, idx2_lt0 j⟩ : Fin E) (0 : Fin 1))).toInt = ((i 0).val : Int) ∧ (j 1).val = (i 1).val := by
  unfold ScatterDims.resultIdx? at h
  split at h
  · rename_i hb
    have hi := Option.some.inj h
    subst hi
    have hb0 := hb (0 : Fin 2)
    refine ⟨?_, ?_⟩
    · show _ = (((rowScatterDims N E C wf).start j idx (0 : Fin 2)
        + ((rowScatterDims N E C wf).window j (0 : Fin 2) : Int)).toNat : Int)
      rw [rowScatter_start_zero, rowScatter_window_zero] at hb0 ⊢
      omega
    · show _ = ((rowScatterDims N E C wf).start j idx (1 : Fin 2)
        + ((rowScatterDims N E C wf).window j (1 : Fin 2) : Int)).toNat
      rw [rowScatter_start_one, rowScatter_window_one]
      omega
  · exact absurd h (by simp)

/-- The converse: an update `(e, f)` whose scatter index `idx[e, 0]`, read signed, is the row `r < N` lands on
    `(r, f)` (here `C` columns on both sides, so the column is always inside). -/
theorem rowScatter_lands_of_eq {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (r : Fin N)
    (h : (idx (ix2 e (0 : Fin 1))).toInt = (r.val : Int)) :
    (rowScatterDims N E C wf).resultIdx? (ix2 e f) idx = some (ix2 r f) := by
  have hs0 : (rowScatterDims N E C wf).start (ix2 e f) idx (0 : Fin 2) = (r.val : Int) := by
    rw [rowScatter_start_zero]; exact h
  have hb : ∀ a : Fin 2, 0 ≤ (rowScatterDims N E C wf).start (ix2 e f) idx a + ((rowScatterDims N E C wf).window (ix2 e f) a : Int)
      ∧ (rowScatterDims N E C wf).start (ix2 e f) idx a + ((rowScatterDims N E C wf).window (ix2 e f) a : Int)
        < (((⟨2, ![N, C]⟩ : Shape).size a : Nat) : Int) := by
    intro a
    match a with
    | ⟨0, _⟩ =>
      show 0 ≤ (rowScatterDims N E C wf).start (ix2 e f) idx (0 : Fin 2) + ((rowScatterDims N E C wf).window (ix2 e f) (0 : Fin 2) : Int)
        ∧ (rowScatterDims N E C wf).start (ix2 e f) idx (0 : Fin 2) + ((rowScatterDims N E C wf).window (ix2 e f) (0 : Fin 2) : Int) < (N : Int)
      rw [hs0, rowScatter_window_zero]
      have := r.isLt
      omega
    | ⟨1, _⟩ =>
      show 0 ≤ (rowScatterDims N E C wf).start (ix2 e f) idx (1 : Fin 2) + ((rowScatterDims N E C wf).window (ix2 e f) (1 : Fin 2) : Int)
        ∧ (rowScatterDims N E C wf).start (ix2 e f) idx (1 : Fin 2) + ((rowScatterDims N E C wf).window (ix2 e f) (1 : Fin 2) : Int) < (C : Int)
      rw [rowScatter_start_one, rowScatter_window_one]
      have : ((ix2 e f) 1).val = f.val := rfl
      have := f.isLt
      omega
  unfold ScatterDims.resultIdx?
  rw [dif_pos hb]
  congr 1
  funext a; refine Fin.ext ?_
  match a with
  | ⟨0, _⟩ =>
    show ((rowScatterDims N E C wf).start (ix2 e f) idx (0 : Fin 2) + ((rowScatterDims N E C wf).window (ix2 e f) (0 : Fin 2) : Int)).toNat = r.val
    rw [hs0, rowScatter_window_zero]; omega
  | ⟨1, _⟩ =>
    show ((rowScatterDims N E C wf).start (ix2 e f) idx (1 : Fin 2) + ((rowScatterDims N E C wf).window (ix2 e f) (1 : Fin 2) : Int)).toNat = f.val
    rw [rowScatter_start_one, rowScatter_window_one]
    have : ((ix2 e f) 1).val = f.val := rfl
    omega

end RowScatter

end Cert.Lib
-- ==== Proof.LibBroadcastRead.lean ====
/-
  Three broadcasts read at an index, over extents that are natural-number variables: a vector made a
  one-column array, a one-column array spread along the lanes, and a scalar spread over any shape.
-/
import Idealize.ShloMosaic.Lib.Pipeline.Value
import Idealize.ShloMosaic.Lib.ValueIdx

noncomputable section

namespace Cert.Lib

open Idealize.ShloMosaic Idealize.ShloMosaic.ValueIdx

variable {α : Type}

/-- A vector of `N` entries made an `[N, 1]` array holds, in row `r`, the vector's entry `r`. -/
theorem bcastCol_apply {N : Nat} (h : (⟨1, ![N]⟩ : Shape).BroadcastsInDim ⟨2, ![N, 1]⟩ (![0] : Fin 1 → Fin 2))
    (x : (⟨1, ![N]⟩ : Shape).Idx → α) (i : (⟨2, ![N, 1]⟩ : Shape).Idx) :
    broadcastInDim ⟨2, ![N, 1]⟩ ![0] h x i = x (ix1 (⟨(i 0).val, idx2_lt0 i⟩ : Fin N)) := by
  refine broadcastInDim_apply _ h x i _ (fun a => ?_)
  match a with
  | ⟨0, _⟩ =>
    show (i 0).val = if N = 1 then 0 else (i 0).val
    split
    · have := idx2_lt0 i; omega
    · rfl

/-- An `[N, 1]` array spread along `C` lanes holds, at `(r, f)`, the column's entry for row `r`. -/
theorem bcastLanes_apply {N C : Nat} (h : (⟨2, ![N, 1]⟩ : Shape).BroadcastsInDim ⟨2, ![N, C]⟩ (![0, 1] : Fin 2 → Fin 2))
    (x : (⟨2, ![N, 1]⟩ : Shape).Idx → α) (i : (⟨2, ![N, C]⟩ : Shape).Idx) :
    broadcastInDim ⟨2, ![N, C]⟩ ![0, 1] h x i = x (ix2 (⟨(i 0).val, idx2_lt0 i⟩ : Fin N) (0 : Fin 1)) := by
  refine broadcastInDim_apply _ h x i _ (fun a => ?_)
  match a with
  | ⟨0, _⟩ =>
    show (i 0).val = if N = 1 then 0 else (i 0).val
    split
    · have := idx2_lt0 i; omega
    · rfl
  | ⟨1, _⟩ =>
    show 0 = if (1 : Nat) = 1 then 0 else (i 1).val
    rw [if_pos rfl]

/-- A scalar spread over a shape holds the scalar everywhere. -/
theorem bcastScalar_apply {t : Shape} (h : (⟨0, ![]⟩ : Shape).BroadcastsInDim t (![] : Fin 0 → Fin t.rank))
    (x : (⟨0, ![]⟩ : Shape).Idx → α) (i : t.Idx) :
    broadcastInDim t ![] h x i = x ix0 :=
  broadcastInDim_apply _ h x i _ (fun a => a.elim0)

end Cert.Lib

end
-- ==== Proof.LibMatProduct.lean ====
import Idealize.ShloMosaic.Lib.ValueIdx
import Idealize.ShloMosaic.PureOps.Ideal.Laws

/-!
# The matrix product `[N, K] · [K, C]` on the host, read at an index

At the exact (extended-real) values a host `dot_general` that contracts axis 1 of its left operand with axis 0 of its
right operand, with no batch axes, is the textbook matrix product: element `(r, c)` of the result is
`∑ k, X[r, k] * W[k, c]`, a sum over the one contraction coordinate `k < K` in which no rounding and no order of
summation is left.
-/

open Idealize.ShloMosaic Idealize.ShloMosaic.ValueIdx

namespace Cert.Lib

/-- The dimension numbers of the matrix product `[N, K] · [K, C] → [N, C]`: the left operand's axis 1 contracts with the
    right operand's axis 0; the left operand's axis 0 and the right operand's axis 1 are the result's two axes, in that
    order; no batch axes. The conditions `wf` are decided once the extents are literals. -/
abbrev matDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

section
variable {N K C : Nat} (wf : DotDims.WF ⟨2, ![N, K]⟩ ⟨2, ![K, C]⟩ ⟨2, ![N, C]⟩ [1] [0] [0] [1] [] [])

/-- The left operand is read at the result's row: its axis 0 is non-contracting, the first of the result's axes. -/
theorem matDims_lhsIdx_zero (i : (⟨2, ![N, C]⟩ : Shape).Idx) (q : (matDims N K C wf).contr.Idx) :
    ((matDims N K C wf).lhsIdx i q 0).val = (i 0).val := by
  unfold DotDims.lhsIdx
  rw [dif_neg (show ¬(0 : Fin 2) ∈ (matDims N K C wf).lhsBatch from List.not_mem_nil),
    dif_pos (show (0 : Fin 2) ∈ (matDims N K C wf).lhsNonContracting from List.mem_singleton.mpr rfl)]
  rfl

/-- … and, on its contracting axis 1, at the contraction coordinate. -/
theorem matDims_lhsIdx_one (i : (⟨2, ![N, C]⟩ : Shape).Idx) (q : (matDims N K C wf).contr.Idx) :
    ((matDims N K C wf).lhsIdx i q 1).val = (q ⟨0, Nat.one_pos⟩).val :=
  (matDims N K C wf).lhsIdx_val_of_single rfl i q

/-- The right operand is read, on its contracting axis 0, at the contraction coordinate … -/
theorem matDims_rhsIdx_zero (i : (⟨2, ![N, C]⟩ : Shape).Idx) (q : (matDims N K C wf).contr.Idx) :
    ((matDims N K C wf).rhsIdx i q 0).val = (q ⟨0, Nat.one_pos⟩).val :=
  (matDims N K C wf).rhsIdx_val_of_single rfl i q

/-- … and at the result's column: its axis 1 is non-contracting, the second of the result's axes. -/
theorem matDims_rhsIdx_one (i : (⟨2, ![N, C]⟩ : Shape).Idx) (q : (matDims N K C wf).contr.Idx) :
    ((matDims N K C wf).rhsIdx i q 1).val = (i 1).val := by
  unfold DotDims.rhsIdx
  rw [dif_neg (show ¬(1 : Fin 2) ∈ (matDims N K C wf).rhsBatch from List.not_mem_nil),
    dif_pos (show (1 : Fin 2) ∈ (matDims N K C wf).rhsNonContracting from List.mem_singleton.mpr rfl)]
  rfl

set_option maxHeartbeats 400000 in
/-- THE HOST'S MATRIX PRODUCT READ AT `(r, c)`: `∑ k < K, X[r, k] * W[k, c]`. The contraction index set has one axis of
    extent `K`; the sum over it is re-indexed by its one coordinate, and the two operand indices at `(r, c)` and `k`
    are `(r, k)` and `(k, c)`. -/
theorem dotGeneral_matDims_apply (p : Option ContractPrecision)
    (X : FVec Ideal ⟨2, ![N, K]⟩ .f32) (W : FVec Ideal ⟨2, ![K, C]⟩ .f32) (i : (⟨2, ![N, C]⟩ : Shape).Idx) :
    Host.dotGeneral (F := Ideal) (matDims N K C wf) p X W i
      = ∑ k : Fin K, X (ix2 (⟨(i 0).val, idx2_lt0 i⟩ : Fin N) k) * W (ix2 k (⟨(i 1).val, idx2_lt1 i⟩ : Fin C)) := by
  simp only [Host.dotGeneral]
  rw [Ideal.dotGeneral_apply, ← Equiv.sum_comp (contrEquiv1 (matDims N K C wf) K rfl rfl).symm]
  refine Finset.sum_congr rfl fun k _ => ?_
  have hk := contrEquiv1_symm_val (matDims N K C wf) K rfl rfl k
  have el : (matDims N K C wf).lhsIdx i ((contrEquiv1 (matDims N K C wf) K rfl rfl).symm k)
      = ix2 (⟨(i 0).val, idx2_lt0 i⟩ : Fin N) k := funext fun a => Fin.ext (by
    match a with
    | ⟨0, _⟩ => exact matDims_lhsIdx_zero wf _ _
    | ⟨1, _⟩ => exact (matDims_lhsIdx_one wf _ _).trans hk)
  have er : (matDims N K C wf).rhsIdx i ((contrEquiv1 (matDims N K C wf) K rfl rfl).symm k)
      = ix2 k (⟨(i 1).val, idx2_lt1 i⟩ : Fin C) := funext fun a => Fin.ext (by
    match a with
    | ⟨0, _⟩ => exact (matDims_rhsIdx_zero wf _ _).trans hk
    | ⟨1, _⟩ => exact matDims_rhsIdx_one wf _ _)
  rw [el, er]

end

end Cert.Lib
-- ==== Proof.BridgeRecords.lean ====
/-
  What joins the two programs' vocabularies: each dimension-number record the reference program prints is
  the general record at this graph's extents (50000 nodes, 1600000 edges, 128 or 64 features); the
  broadcasts that spread a node's scale, an edge's coefficient or a zero over an array, read at an index; the
  per-edge coefficient at an edge; and the kernel program's aggregation stages restated over the reference
  program's own records (the two programs print the same records under two names).
-/
import proofs.«116535_j22385369547414_2_alg».proof.Proof.RTerms
import proofs.«116535_j22385369547414_2_alg».proof.Proof.KTerms
import proofs.«116535_j22385369547414_2_alg».proof.Proof.LibRowGatherScatter
import proofs.«116535_j22385369547414_2_alg».proof.Proof.LibBroadcastRead
import proofs.«116535_j22385369547414_2_alg».proof.Proof.LibMatProduct
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.Lib

/-! ## The program's dimension numbers are the general ones at its extents -/

theorem wfG128 : GatherDims.WF ⟨2, ![50000, 128]⟩ ⟨2, ![1600000, 1]⟩ ⟨2, ![1600000, 128]⟩ [1] [0] [] [0] [] 1 ![1, 128] := by decide
theorem wfS128 : ScatterDims.WF ⟨2, ![50000, 128]⟩ ⟨2, ![1600000, 1]⟩ ⟨2, ![1600000, 128]⟩ [1] [0] [0] 1 := by decide
theorem wfG64 : GatherDims.WF ⟨2, ![50000, 64]⟩ ⟨2, ![1600000, 1]⟩ ⟨2, ![1600000, 64]⟩ [1] [0] [] [0] [] 1 ![1, 64] := by decide
theorem wfS64 : ScatterDims.WF ⟨2, ![50000, 64]⟩ ⟨2, ![1600000, 1]⟩ ⟨2, ![1600000, 64]⟩ [1] [0] [0] 1 := by decide
theorem wfV : GatherDims.WF ⟨1, ![50000]⟩ ⟨2, ![1600000, 1]⟩ ⟨1, ![1600000]⟩ [] [0] [] [0] [] 1 ![1] := by decide
theorem wfD1 : DotDims.WF ⟨2, ![50000, 64]⟩ ⟨2, ![64, 128]⟩ ⟨2, ![50000, 128]⟩ [1] [0] [0] [1] [] [] := by decide
theorem wfD2 : DotDims.WF ⟨2, ![50000, 128]⟩ ⟨2, ![128, 64]⟩ ⟨2, ![50000, 64]⟩ [1] [0] [0] [1] [] [] := by decide

theorem scatter128_eq : scatter_S50000x128_S1600000x1_S1600000x128_1_0_0_1 = rowScatterDims 50000 1600000 128 wfS128 := rfl
theorem gather128_eq : gather_S50000x128_S1600000x1_S1600000x128_1_0_n_n_0_1_1128 = rowGatherDims 50000 1600000 128 wfG128 := rfl
theorem scatter64_eq : scatter_S50000x64_S1600000x1_S1600000x64_1_0_0_1 = rowScatterDims 50000 1600000 64 wfS64 := rfl
theorem gather64_eq : gather_S50000x64_S1600000x1_S1600000x64_1_0_n_n_0_1_164 = rowGatherDims 50000 1600000 64 wfG64 := rfl
theorem gatherVec_eq : gather_S50000_S1600000x1_S1600000_n_0_n_n_0_1_1 = vecGatherDims 50000 1600000 wfV := rfl
theorem dot1_eq : dot_S50000x64_S64x128_S50000x128_1_0_0_1_n_n = matDims 50000 64 128 wfD1 := rfl
theorem dot2_eq : dot_S50000x128_S128x64_S50000x64_1_0_0_1_n_n = matDims 50000 128 64 wfD2 := rfl

/-! ## The broadcasts of this program read at an index -/

/-- The nodes' scale as a column, spread along the lanes, reads the node's scale. -/
theorem scaleLanes128 (d : FVec Ideal S50000 .f32) (i : S50000x128.Idx) :
    (broadcastInDim S50000x128 ![0, 1] bcast_S50000x1_S50000x128_0_1
      (broadcastInDim S50000x1 ![0] bcast_S50000_S50000x1_0 d) : FVec Ideal S50000x128 .f32) i
      = d (ix1 (⟨(i 0).val, idx2_lt0 i⟩ : Fin 50000)) :=
  (bcastLanes_apply _ _ i).trans (bcastCol_apply _ _ _)
theorem scaleLanes64 (d : FVec Ideal S50000 .f32) (i : S50000x64.Idx) :
    (broadcastInDim S50000x64 ![0, 1] bcast_S50000x1_S50000x64_0_1
      (broadcastInDim S50000x1 ![0] bcast_S50000_S50000x1_0 d) : FVec Ideal S50000x64 .f32) i
      = d (ix1 (⟨(i 0).val, idx2_lt0 i⟩ : Fin 50000)) :=
  (bcastLanes_apply _ _ i).trans (bcastCol_apply _ _ _)
/-- The per-edge coefficient as a column, spread along the lanes, reads the edge's coefficient. -/
theorem edgeLanes128 (n : FVec Ideal S1600000 .f32) (j : S1600000x128.Idx) :
    (broadcastInDim S1600000x128 ![0, 1] bcast_S1600000x1_S1600000x128_0_1
      (broadcastInDim S1600000x1 ![0] bcast_S1600000_S1600000x1_0 n) : FVec Ideal S1600000x128 .f32) j
      = n (ix1 (⟨(j 0).val, idx2_lt0 j⟩ : Fin 1600000)) :=
  (bcastLanes_apply _ _ j).trans (bcastCol_apply _ _ _)
theorem edgeLanes64 (n : FVec Ideal S1600000 .f32) (j : S1600000x64.Idx) :
    (broadcastInDim S1600000x64 ![0, 1] bcast_S1600000x1_S1600000x64_0_1
      (broadcastInDim S1600000x1 ![0] bcast_S1600000_S1600000x1_0 n) : FVec Ideal S1600000x64 .f32) j
      = n (ix1 (⟨(j 0).val, idx2_lt0 j⟩ : Fin 1600000)) :=
  (bcastLanes_apply _ _ j).trans (bcastCol_apply _ _ _)
/-- The zero array is zero everywhere. -/
theorem zeros128 (i : S50000x128.Idx) :
    (broadcastInDim S50000x128 ![] bcast_S_S50000x128 (constant S_ .f32 0x00000000#32) : FVec Ideal S50000x128 .f32) i = (0 : EReal) :=
  (bcastScalar_apply _ _ i).trans Ideal.ofBits_zero_f32
theorem zeros64 (i : S50000x64.Idx) :
    (broadcastInDim S50000x64 ![] bcast_S_S50000x64 (constant S_ .f32 0x00000000#32) : FVec Ideal S50000x64 .f32) i = (0 : EReal) :=
  (bcastScalar_apply _ _ i).trans Ideal.ofBits_zero_f32
/-- The per-edge coefficient at an edge: the scale at its wrapped, clamped source times the scale at its wrapped,
    clamped destination. -/
theorem edgeCoef_apply (src dst : IVec S1600000 32) (k : S1600000.Idx) :
    edgeCoef src dst k
      = Host.gather (vecGatherDims 50000 1600000 wfV) (disOf dst)
          (broadcastInDim S1600000x1 ![0] bcast_S1600000_S1600000x1_0 (wrapIdx src)) k
        * Host.gather (vecGatherDims 50000 1600000 wfV) (disOf dst)
          (broadcastInDim S1600000x1 ![0] bcast_S1600000_S1600000x1_0 (wrapIdx dst)) k := by
  unfold edgeCoef
  rw [gatherVec_eq]
  exact mulf_apply _ _ k

/-! ## The kernel program's stages over this program's records -/

/-- The kernel's aggregation stage at 128 features, spelt with this program's own records. -/
def aggR128 (HS : FVec Ideal S50000x128 .f32) (D2 : FVec Ideal S50000x1 .f32)
    (src dst : IVec S1600000 32) (b : FVec Ideal S128 .f32) : FVec Ideal S50000x128 .f32 :=
  maximumf
    (addf
      (addf
        (mulf (broadcastInDim S50000x128 ![0, 1] bcast_S50000x1_S50000x128_0_1 D2)
          (Host.scatterAdd scatter_S50000x128_S1600000x1_S1600000x128_1_0_0_1
            (broadcastInDim S50000x128 ![] bcast_S_S50000x128 (constant S_ .f32 0x00000000#32))
            (broadcastInDim S1600000x1 ![0] bcast_S1600000_S1600000x1_0 dst)
            (Host.gather gather_S50000x128_S1600000x1_S1600000x128_1_0_n_n_0_1_1128 HS
              (broadcastInDim S1600000x1 ![0] bcast_S1600000_S1600000x1_0 (wrapIdx src)))))
        (mulf HS (broadcastInDim S50000x128 ![0, 1] bcast_S50000x1_S50000x128_0_1 D2)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The kernel's aggregation stage at 64 features, spelt with this program's own records. -/
def aggR64 (HS : FVec Ideal S50000x64 .f32) (D2 : FVec Ideal S50000x1 .f32)
    (src dst : IVec S1600000 32) (b : FVec Ideal S64 .f32) : FVec Ideal S50000x64 .f32 :=
  maximumf
    (addf
      (addf
        (mulf (broadcastInDim S50000x64 ![0, 1] bcast_S50000x1_S50000x64_0_1 D2)
          (Host.scatterAdd scatter_S50000x64_S1600000x1_S1600000x64_1_0_0_1
            (broadcastInDim S50000x64 ![] bcast_S_S50000x64 (constant S_ .f32 0x00000000#32))
            (broadcastInDim S1600000x1 ![0] bcast_S1600000_S1600000x1_0 dst)
            (Host.gather gather_S50000x64_S1600000x1_S1600000x64_1_0_n_n_0_1_164 HS
              (broadcastInDim S1600000x1 ![0] bcast_S1600000_S1600000x1_0 (wrapIdx src)))))
        (mulf HS (broadcastInDim S50000x64 ![0, 1] bcast_S50000x1_S50000x64_0_1 D2)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The kernel program's aggregation stage at 128 features is the same function. -/
theorem agg128_eq_aggR (HS : FVec Ideal S50000x128 .f32) (D2 : FVec Ideal S50000x1 .f32)
    (src dst : IVec S1600000 32) (b : FVec Ideal S128 .f32) :
    Cert.KernelIdeal.KTerms.agg128 HS D2 src dst b = aggR128 HS D2 src dst b := rfl
/-- The kernel program's aggregation stage at 64 features is the same function. -/
theorem agg64_eq_aggR (HS : FVec Ideal S50000x64 .f32) (D2 : FVec Ideal S50000x1 .f32)
    (src dst : IVec S1600000 32) (b : FVec Ideal S64 .f32) :
    Cert.KernelIdeal.KTerms.agg64 HS D2 src dst b = aggR64 HS D2 src dst b := rfl
/-- Both programs take the edges' sources from row 0 of the edge list, -/
theorem srcOf_eq (ei : IVec S2x1600000 32) : Cert.KernelIdeal.KTerms.srcOf ei = srcOf ei := rfl
/-- the destinations from row 1, -/
theorem dstOf_eq (ei : IVec S2x1600000 32) : Cert.KernelIdeal.KTerms.dstOf ei = dstOf ei := rfl
/-- and compute each node's scale by the same operations. -/
theorem disCol_eq (dst : IVec S1600000 32) :
    Cert.KernelIdeal.KTerms.disCol dst = broadcastInDim S50000x1 ![0] bcast_S50000_S50000x1_0 (disOf dst) := rfl

end Cert.ReferenceIdeal.RefValue
end
-- ==== Proof.LibERealScale.lean ====
import Idealize.ShloMosaic.PureOps.Ideal
import Mathlib.Data.EReal.Operations
import Mathlib.Data.EReal.Inv

/-!
# Scaling sums of extended reals by a finite non-negative factor; inverse square roots of degrees

The extended reals `[-∞, +∞]` are not a semiring: `c * (x + y) = c * x + c * y` can fail (for instance at
`x = ⊤`, `y = ⊥` with a negative `c`, or at `c = ⊤` with `x`, `y` of opposite sign). It does hold when the factor
`c` is non-negative and not `⊤`, and then it passes to finite sums. The factors that occur when a sum over the
in-edges of a graph node is normalised by its degree are of that kind: the inverse square root of a real `t ≥ 1` is a
non-negative real.
-/

open Idealize.ShloMosaic

namespace Cert.Lib

/-- A non-negative extended real `c` other than `⊤` multiplies a finite sum termwise:
    `c * ∑ j ∈ s, a j = ∑ j ∈ s, c * a j`. (Induction on `s`; each step is distributivity of such a `c` over one
    addition, which holds whatever the two summands are — for `c = 0` both sides are `0`, and a positive real `c`
    preserves the sign and the infiniteness of each summand, hence also the junk value of `⊤ + ⊥`.) -/
theorem mul_sum_of_nonneg_of_ne_top {ι : Type*} (s : Finset ι) (c : EReal) (hc : 0 ≤ c) (hc' : c ≠ ⊤)
    (a : ι → EReal) : c * ∑ j ∈ s, a j = ∑ j ∈ s, c * a j := by
  classical
  induction s using Finset.induction_on with
  | empty => simp
  | insert i s hi ih =>
    rw [Finset.sum_insert hi, Finset.sum_insert hi, EReal.left_distrib_of_nonneg_of_ne_top hc hc', ih]

/-- The same with the factor on the right: `(∑ j ∈ s, a j) * c = ∑ j ∈ s, a j * c`. -/
theorem sum_mul_of_nonneg_of_ne_top {ι : Type*} (s : Finset ι) (c : EReal) (hc : 0 ≤ c) (hc' : c ≠ ⊤)
    (a : ι → EReal) : (∑ j ∈ s, a j) * c = ∑ j ∈ s, a j * c := by
  rw [mul_comm, mul_sum_of_nonneg_of_ne_top s c hc hc']
  exact Finset.sum_congr rfl fun j _ => mul_comm _ _

/-- A finite sum of real numbers, each read as an extended real, is the real sum read as an extended real. -/
theorem sum_coe {ι : Type*} (s : Finset ι) (a : ι → ℝ) :
    (∑ j ∈ s, ((a j : ℝ) : EReal)) = ((∑ j ∈ s, a j : ℝ) : EReal) := by
  classical
  induction s using Finset.induction_on with
  | empty => simp
  | insert i s hi ih => rw [Finset.sum_insert hi, Finset.sum_insert hi, ih, EReal.coe_add]

/-- Summing the same real `r` over a finite set `s` gives `|s| * r`, as an extended real. -/
theorem sum_const_coe {ι : Type*} (s : Finset ι) (r : ℝ) :
    (∑ _j ∈ s, ((r : ℝ) : EReal)) = (((s.card : ℝ) * r : ℝ) : EReal) := by
  rw [sum_coe, Finset.sum_const, nsmul_eq_mul]

/-- The inverse square root of a positive real `t` is the real `(√t)⁻¹`. -/
theorem rsqrt_coe_of_pos (t : ℝ) (ht : 0 < t) :
    Ideal.rsqrt (t : EReal) = (((Real.sqrt t)⁻¹ : ℝ) : EReal) := by
  rw [Ideal.rsqrt_coe, if_neg (not_lt.mpr ht.le), if_neg ht.ne']

/-- The inverse square root of a real `t ≥ 1` is a non-negative extended real that is not `⊤`: it is the real
    `(√t)⁻¹ ≥ 0`. -/
theorem rsqrt_nonneg_ne_top_of_one_le (t : ℝ) (ht : 1 ≤ t) :
    0 ≤ Ideal.rsqrt (t : EReal) ∧ Ideal.rsqrt (t : EReal) ≠ ⊤ := by
  rw [rsqrt_coe_of_pos t (lt_of_lt_of_le one_pos ht)]
  exact ⟨EReal.coe_nonneg.mpr (inv_nonneg.mpr (Real.sqrt_nonneg t)), EReal.coe_ne_top _⟩

/-- The degree `1 + (0 + n · 1)` of a node with `n` in-edges (one for the node itself, then a sum of `n` ones
    started from `0`) is the real `1 + n`, and its inverse square root is a positive real. -/
theorem rsqrt_one_add_count_pos (n : ℕ) :
    ∃ r : ℝ, 0 < r ∧
      Ideal.rsqrt (((1 : ℝ) : EReal) + (0 + (((n : ℝ) * 1 : ℝ) : EReal))) = ((r : ℝ) : EReal) := by
  have hpos : (0 : ℝ) < 1 + (n : ℝ) := by positivity
  refine ⟨(Real.sqrt (1 + (n : ℝ)))⁻¹, inv_pos.mpr (Real.sqrt_pos.mpr hpos), ?_⟩
  rw [zero_add, mul_one, ← EReal.coe_add, rsqrt_coe_of_pos _ hpos]

/-- The binary32 word `0x3F800000` (sign `0`, biased exponent `127`, significand field `0`) denotes the real
    `1 = 2^23 · 2^(127 - 127 - 23)`. -/
theorem ofBits_one_f32 : Ideal.ofBits .f32 0x3F800000#32 = ((1 : ℝ) : EReal) := by
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  simp only [Ideal.ofBits, Ideal.ieee, hneg, hex, hfr]
  norm_num

end Cert.Lib
-- ==== Proof.LayerCore.lean ====
/-
  The one algebraic step between the two programs, at one node `i` of the graph and one feature.
  The kernel gathers, at each edge's source `s`, the feature already scaled by the source's inverse square-root
  degree, `H(s) · dis(s)`, adds these up over the edges that arrive at `i`, and scales the sum by `dis(i)`.
  The reference gathers the bare feature `H(s)`, scales it per edge by `dis(s) · dis(d)` with `d` the edge's
  destination, and adds up. An edge whose update lands on `i` has destination `i`, so its coefficient is
  `dis(s) · dis(i)`; and a non-negative finite factor moves inside a sum of extended reals.
-/
import Idealize.ShloMosaic.Lib.ValueIdx
import Idealize.ShloMosaic.PureOps.Ideal
import proofs.«116535_j22385369547414_2_alg».proof.Proof.LibRowGatherScatter
import proofs.«116535_j22385369547414_2_alg».proof.Proof.LibERealScale

noncomputable section

open scoped BigOperators

namespace Cert.Lib

open Idealize.ShloMosaic Idealize.ShloMosaic.ValueIdx

/-- Summed over any set `F` of updates that all land on node `i`: `dis(i)` times the gathered scaled features is
    the gathered features times the per-edge coefficients. `hw`: an edge whose destination word reads `i`'s row has
    its wrapped, clamped destination at that row too. -/
theorem scaled_gather_sum {N E C : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (wfV : GatherDims.WF ⟨1, ![N]⟩ ⟨2, ![E, 1]⟩ ⟨1, ![E]⟩ [] [0] [] [0] [] 1 ![1])
    (H HS : (⟨2, ![N, C]⟩ : Shape).Idx → EReal) (dis : (⟨1, ![N]⟩ : Shape).Idx → EReal)
    (wsrc wdst dstI : IVec ⟨2, ![E, 1]⟩ 32) (i : (⟨2, ![N, C]⟩ : Shape).Idx)
    (F : Finset (⟨2, ![E, C]⟩ : Shape).Idx) (hF : ∀ j ∈ F, (rowScatterDims N E C wfS).resultIdx? j dstI = some i)
    (hHS : ∀ p : (⟨2, ![N, C]⟩ : Shape).Idx, HS p = H p * dis (ix1 (⟨(p 0).val, idx2_lt0 p⟩ : Fin N)))
    (hd0 : 0 ≤ dis (ix1 (⟨(i 0).val, idx2_lt0 i⟩ : Fin N))) (hdT : dis (ix1 (⟨(i 0).val, idx2_lt0 i⟩ : Fin N)) ≠ ⊤)
    (hw : ∀ e : Fin E, (dstI (ix2 e (0 : Fin 1))).toInt = ((i 0).val : Int) →
      min (wdst (ix2 e (0 : Fin 1))).toInt.toNat (N - 1) = (i 0).val) :
    dis (ix1 (⟨(i 0).val, idx2_lt0 i⟩ : Fin N))
        * ∑ j ∈ F,
            Host.gather (rowGatherDims N E C wfG) HS wsrc j
      = ∑ j ∈ F,
          Host.gather (rowGatherDims N E C wfG) H wsrc j
            * (Host.gather (vecGatherDims N E wfV) dis wsrc (ix1 (⟨(j 0).val, idx2_lt0 j⟩ : Fin E))
                * Host.gather (vecGatherDims N E wfV) dis wdst (ix1 (⟨(j 0).val, idx2_lt0 j⟩ : Fin E))) := by
  rw [mul_sum_of_nonneg_of_ne_top _ _ hd0 hdT]
  refine Finset.sum_congr rfl fun j hj => ?_
  have hland := (rowScatter_lands wfS dstI j i (hF j hj)).1
  obtain ⟨e, f, rfl⟩ : ∃ (e : Fin E) (f : Fin C), j = ix2 e f := ⟨j 0, j 1, eq_ix2 j⟩
  have hdst : min (wdst (ix2 e (0 : Fin 1))).toInt.toNat (N - 1) = (i 0).val := hw e hland
  show dis (ix1 (⟨(i 0).val, idx2_lt0 i⟩ : Fin N)) * Host.gather (rowGatherDims N E C wfG) HS wsrc (ix2 e f)
      = Host.gather (rowGatherDims N E C wfG) H wsrc (ix2 e f)
          * (Host.gather (vecGatherDims N E wfV) dis wsrc (ix1 e) * Host.gather (vecGatherDims N E wfV) dis wdst (ix1 e))
  rw [rowGather_apply hN wfG HS wsrc e f, rowGather_apply hN wfG H wsrc e f, vecGather_apply hN wfV dis wsrc e,
    vecGather_apply hN wfV dis wdst e, hHS]
  have e1 : (ix1 (⟨min (wdst (ix2 e (0 : Fin 1))).toInt.toNat (N - 1), by omega⟩ : Fin N) : (⟨1, ![N]⟩ : Shape).Idx)
      = ix1 (⟨(i 0).val, idx2_lt0 i⟩ : Fin N) := congrArg ix1 (Fin.ext hdst)
  rw [e1]
  show dis (ix1 (⟨(i 0).val, idx2_lt0 i⟩ : Fin N))
        * (H (ix2 (⟨min (wsrc (ix2 e (0 : Fin 1))).toInt.toNat (N - 1), by omega⟩ : Fin N) f)
            * dis (ix1 (⟨min (wsrc (ix2 e (0 : Fin 1))).toInt.toNat (N - 1), by omega⟩ : Fin N)))
      = H (ix2 (⟨min (wsrc (ix2 e (0 : Fin 1))).toInt.toNat (N - 1), by omega⟩ : Fin N) f)
        * (dis (ix1 (⟨min (wsrc (ix2 e (0 : Fin 1))).toInt.toNat (N - 1), by omega⟩ : Fin N))
            * dis (ix1 (⟨(i 0).val, idx2_lt0 i⟩ : Fin N)))
  rw [mul_comm (dis (ix1 (⟨(i 0).val, idx2_lt0 i⟩ : Fin N))), mul_assoc]

end Cert.Lib

end
-- ==== Proof.LayerGeneric.lean ====
/-
  One layer's aggregation against one layer's convolution, as whole arrays, over extents that are variables
  (`N` nodes, `E` edges, `C` features) and operands that are variables: the two arrays are equal at every node
  and feature. Per element this is the step of LayerCore for the sum over the arriving edges, plus
  associativity for the self-loop term `(H · dis) · dis = H · (dis · dis)`; the bias and the clamp are the same on
  both sides.
-/
import proofs.«116535_j22385369547414_2_alg».proof.Proof.LayerCore

noncomputable section

open scoped BigOperators

namespace Cert.Lib

open Idealize.ShloMosaic Idealize.ShloMosaic.ValueIdx

/-- `D2b` is the nodes' scale spread along the lanes, `DDb` its square spread likewise, `Z0` the zero array,
    `NB` the per-edge coefficient spread along the lanes, `HS` the product `H` with each row scaled. -/
theorem agg_eq_conv {N E C : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (wfV : GatherDims.WF ⟨1, ![N]⟩ ⟨2, ![E, 1]⟩ ⟨1, ![E]⟩ [] [0] [] [0] [] 1 ![1])
    (H HS D2b DDb Bb Z Z0 : FVec Ideal ⟨2, ![N, C]⟩ .f32) (NB : FVec Ideal ⟨2, ![E, C]⟩ .f32)
    (dis : FVec Ideal ⟨1, ![N]⟩ .f32) (wsI wdI dI : IVec ⟨2, ![E, 1]⟩ 32)
    (hD2 : ∀ i : (⟨2, ![N, C]⟩ : Shape).Idx, D2b i = dis (ix1 (⟨(i 0).val, idx2_lt0 i⟩ : Fin N)))
    (hDD : ∀ i : (⟨2, ![N, C]⟩ : Shape).Idx, DDb i
      = dis (ix1 (⟨(i 0).val, idx2_lt0 i⟩ : Fin N)) * dis (ix1 (⟨(i 0).val, idx2_lt0 i⟩ : Fin N)))
    (hZ0 : ∀ i : (⟨2, ![N, C]⟩ : Shape).Idx, Z0 i = 0)
    (hNB : ∀ j : (⟨2, ![E, C]⟩ : Shape).Idx, NB j
      = Host.gather (vecGatherDims N E wfV) dis wsI (ix1 (⟨(j 0).val, idx2_lt0 j⟩ : Fin E))
        * Host.gather (vecGatherDims N E wfV) dis wdI (ix1 (⟨(j 0).val, idx2_lt0 j⟩ : Fin E)))
    (hHS : ∀ p : (⟨2, ![N, C]⟩ : Shape).Idx, HS p = H p * dis (ix1 (⟨(p 0).val, idx2_lt0 p⟩ : Fin N)))
    (hd : ∀ r : (⟨1, ![N]⟩ : Shape).Idx, 0 ≤ dis r ∧ dis r ≠ ⊤)
    (hw : ∀ (r : Nat), r < N → ∀ e : Fin E, (dI (ix2 e (0 : Fin 1))).toInt = (r : Int) →
      min (wdI (ix2 e (0 : Fin 1))).toInt.toNat (N - 1) = r) :
    maximumf (addf (addf (mulf D2b (Host.scatterAdd (rowScatterDims N E C wfS) Z0 dI
        (Host.gather (rowGatherDims N E C wfG) HS wsI))) (mulf HS D2b)) Bb) Z
      = maximumf (addf (addf (Host.scatterAdd (rowScatterDims N E C wfS) Z0 dI
        (mulf (Host.gather (rowGatherDims N E C wfG) H wsI) NB)) (mulf H DDb)) Bb) Z := by
  funext i
  obtain ⟨S, hSm, hSv⟩ : ∃ S : Finset (⟨2, ![E, C]⟩ : Shape).Idx,
      (∀ j ∈ S, (rowScatterDims N E C wfS).resultIdx? j dI = some i) ∧
      ∀ (x : FVec Ideal ⟨2, ![N, C]⟩ .f32) (upd : FVec Ideal ⟨2, ![E, C]⟩ .f32),
        Host.scatterAdd (rowScatterDims N E C wfS) x dI upd i = x i + ∑ j ∈ S, upd j :=
    ⟨_, fun j hj => (Finset.mem_filter.mp hj).2, fun _ _ => rfl⟩
  simp only [maximumf_apply, addf_apply, mulf_apply]
  rw [hSv, hSv, hD2, hDD, hZ0, zero_add, zero_add, hHS i]
  have key := scaled_gather_sum hN wfG wfS wfV H HS dis wsI wdI dI i S hSm hHS (hd _).1 (hd _).2
    (hw (i 0).val (idx2_lt0 i))
  rw [key, mul_assoc]
  have hsum : ∑ j ∈ S, mulf (Host.gather (rowGatherDims N E C wfG) H wsI) NB j
      = ∑ j ∈ S, Host.gather (rowGatherDims N E C wfG) H wsI j
          * (Host.gather (vecGatherDims N E wfV) dis wsI (ix1 (⟨(j 0).val, idx2_lt0 j⟩ : Fin E))
              * Host.gather (vecGatherDims N E wfV) dis wdI (ix1 (⟨(j 0).val, idx2_lt0 j⟩ : Fin E))) :=
    Finset.sum_congr rfl fun j _ => by rw [mulf_apply, hNB j]
  rw [hsum]

end Cert.Lib

end
-- ==== Proof.NodeScale.lean ====
/-
  Two facts about the reference's node scaling. Each node's inverse square-root degree is a non-negative extended
  real other than ⊤: the degree is one (the node's own loop) plus a count of edges, a real number at least one.
  And at an edge whose destination word reads a row inside the node range, wrapping negative indices and then
  clamping, as a gather does, gives that same row back.
-/
import proofs.«116535_j22385369547414_2_alg».proof.Proof.RTerms
import proofs.«116535_j22385369547414_2_alg».proof.Proof.LibRowGatherScatter
import proofs.«116535_j22385369547414_2_alg».proof.Proof.LibERealScale
import proofs.«116535_j22385369547414_2_alg».proof.Proof.LibBroadcastRead
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Lib

/-- A 32-bit word whose signed reading is a natural number is not signed-less-than zero, so a select on that
    comparison takes its second alternative: the word itself. -/
theorem select_slt_zero_of_toInt_natCast (v a : BitVec 32) (r : Nat) (hv : v.toInt = (r : Int)) :
    Scalar.select (IntOp.cmpi .slt v 0#32) a v = v := by
  have h : v.slt 0#32 = false := by
    simp [BitVec.slt, hv]
  unfold IntOp.cmpi
  simp only [h]
  exact select_zero _ _

/-- The wrapped index at an edge: the word plus 50000 when the word reads negative, else the word. -/
theorem wrapIdx_apply (v : IVec S1600000 32) (i : S1600000.Idx) :
    wrapIdx v i = Scalar.select (IntOp.cmpi .slt (v i) 0#32) (IntOp.addi (v i) 50000#32) (v i) := by
  unfold wrapIdx select cmpi addi
  rw [bcastScalar_apply, bcastScalar_apply]
  rfl

set_option maxHeartbeats 400000 in
/-- At an edge whose destination word reads the row `r < 50000`, the wrapped destination, read signed and clamped
    into `[0, 49999]` as a gather clamps it, is `r` again: the word is not negative, so it is not wrapped, and `r` is
    inside the clamp's range. -/
theorem wrapped_dst_row (dst : IVec S1600000 32) (e : Fin 1600000) (r : Nat) (hr : r < 50000)
    (h : ((broadcastInDim S1600000x1 ![0] bcast_S1600000_S1600000x1_0 dst : IVec S1600000x1 32) (ix2 e (0 : Fin 1))).toInt = (r : Int)) :
    min ((broadcastInDim S1600000x1 ![0] bcast_S1600000_S1600000x1_0 (wrapIdx dst) : IVec S1600000x1 32) (ix2 e (0 : Fin 1))).toInt.toNat (50000 - 1) = r := by
  rw [bcastCol_apply] at h ⊢
  rw [wrapIdx_apply, select_slt_zero_of_toInt_natCast _ _ r h, h]
  omega

/-- The inverse square root of one plus a count (a sum of ones over a finite set, started from zero) is a
    non-negative extended real other than `⊤`: the argument is the real `1 + |s|`, at least one. -/
theorem rsqrt_one_add_card {ι : Type*} (s : Finset ι) :
    0 ≤ Ideal.rsqrt (((1 : ℝ) : EReal) + (0 + ∑ _j ∈ s, ((1 : ℝ) : EReal))) ∧
      Ideal.rsqrt (((1 : ℝ) : EReal) + (0 + ∑ _j ∈ s, ((1 : ℝ) : EReal))) ≠ ⊤ := by
  rw [sum_const_coe, zero_add, ← EReal.coe_add]
  refine rsqrt_nonneg_ne_top_of_one_le _ ?_
  have : (0 : ℝ) ≤ (s.card : ℝ) * 1 := by positivity
  linarith

/-- The host's inverse square root of a sum whose second term is an accumulating scatter, read at an index: the
    inverse square root of the first term there plus the scatter's operand there plus the sum of the updates
    that land there. The set of those updates depends on the dimension numbers, the indices and the place only. -/
theorem rsqrt_add_scatterAdd_apply {s si su : Shape} (d : ScatterDims s si su) {w : Nat} (idx : IVec si w) (r : s.Idx) :
    ∃ S : Finset su.Idx, ∀ (a x : FVec Ideal s .f32) (upd : FVec Ideal su .f32),
      Host.rsqrt (addf a (Host.scatterAdd d x idx upd)) r = Ideal.rsqrt (a r + (x r + ∑ j ∈ S, upd j)) :=
  ⟨_, fun _ _ _ => rfl⟩

set_option maxHeartbeats 200000 in
/-- Each node's inverse square-root degree is a non-negative extended real other than `⊤`: it is the inverse square
    root of one plus the sum, started from zero, of a one for each edge that lands on the node. -/
theorem disOf_nonneg_ne_top (dst : IVec S1600000 32) (r : S50000.Idx) : 0 ≤ disOf dst r ∧ disOf dst r ≠ ⊤ := by
  obtain ⟨S, hS⟩ := rsqrt_add_scatterAdd_apply scatter_S50000_S1600000x1_S1600000_n_0_0_1
    (broadcastInDim S1600000x1 ![0] bcast_S1600000_S1600000x1_0 dst) r
  have h1 : (broadcastInDim S50000 ![] bcast_S_S50000 (constant (F := Ideal) S_ .f32 0x3F800000#32)) r
      = ((1 : ℝ) : EReal) := by
    rw [bcastScalar_apply, constant_apply, ofBits_one_f32]
  have h0 : (broadcastInDim S50000 ![] bcast_S_S50000 (constant (F := Ideal) S_ .f32 0x00000000#32)) r
      = (0 : EReal) := by
    rw [bcastScalar_apply, constant_apply, Ideal.ofBits_zero_f32]
  have hu : ∀ j, (broadcastInDim S1600000 ![] bcast_S_S1600000 (constant (F := Ideal) S_ .f32 0x3F800000#32)) j
      = ((1 : ℝ) : EReal) := by
    intro j
    rw [bcastScalar_apply, constant_apply, ofBits_one_f32]
  unfold disOf
  rw [hS, h1, h0, Finset.sum_congr rfl (fun j _ => hu j)]
  exact rsqrt_one_add_card S

end Cert.ReferenceIdeal.RefValue

end
-- ==== Proof.Layer128.lean ====
/-
  The first layer: with the dense product scaled by each node's inverse square-root degree, the kernel's
  aggregation stage at 128 features is the reference's convolution of the bare product followed by the clamp at
  zero — the general statement of LayerGeneric at this graph's extents, its hypotheses read off this
  program's broadcasts.
-/
import proofs.«116535_j22385369547414_2_alg».proof.Proof.BridgeRecords
import proofs.«116535_j22385369547414_2_alg».proof.Proof.LayerGeneric
import proofs.«116535_j22385369547414_2_alg».proof.Proof.NodeScale
import proofs.«116535_j22385369547414_2_alg».proof.Proof.Spec

noncomputable section

open scoped BigOperators

namespace Cert.ReferenceIdeal.RefValue

open Cert.ReferenceIdeal Cert.ReferenceIdeal.Gen Idealize.ShloMosaic Idealize.ShloMosaic.ValueIdx Cert.Lib

/-! ## The first layer -/

/-- The scaled product at 128 features is the host's matrix product with each row scaled by the node's scale. -/
theorem scaledProd_eq_dot1 (X : FVec Ideal S50000x64 .f32) (W : FVec Ideal S64x128 .f32) (d : FVec Ideal S50000 .f32)
    (p : S50000x128.Idx) :
    Cert.Spec.scaledProd X W (broadcastInDim S50000x1 ![0] bcast_S50000_S50000x1_0 d) p
      = Host.dotGeneral (F := Ideal) dot_S50000x64_S64x128_S50000x128_1_0_0_1_n_n none X W p
          * d (ix1 (⟨(p 0).val, idx2_lt0 p⟩ : Fin 50000)) := by
  rw [dot1_eq, dotGeneral_matDims_apply wfD1 none X W p, Cert.Spec.scaledProd_apply, bcastCol_apply]

/-- At 128 features: the kernel's aggregation of the scaled product is the reference's convolution of the bare
    product, clamped at zero. -/
theorem layer128 (X : FVec Ideal S50000x64 .f32) (W : FVec Ideal S64x128 .f32) (b : FVec Ideal S128 .f32)
    (src dst : IVec S1600000 32) :
    aggR128 (Cert.Spec.scaledProd X W (broadcastInDim S50000x1 ![0] bcast_S50000_S50000x1_0 (disOf dst)))
        (broadcastInDim S50000x1 ![0] bcast_S50000_S50000x1_0 (disOf dst)) src dst b
      = maximumf (conv128 (Host.dotGeneral dot_S50000x64_S64x128_S50000x128_1_0_0_1_n_n none X W) src dst b)
          (broadcastInDim S50000x128 ![] bcast_S_S50000x128 (constant S_ .f32 0x00000000#32)) := by
  unfold aggR128 conv128
  rw [scatter128_eq, gather128_eq]
  refine agg_eq_conv (N := 50000) (E := 1600000) (C := 128) (by decide) wfG128 wfS128 wfV _ _ _ _ _ _ _ _ (disOf dst) _
    (broadcastInDim S1600000x1 ![0] bcast_S1600000_S1600000x1_0 (wrapIdx dst)) _ ?_ ?_ ?_ ?_ ?_ ?_ ?_
  · exact fun i => scaleLanes128 (disOf dst) i
  · exact fun i => (scaleLanes128 (mulf (disOf dst) (disOf dst)) i).trans (mulf_apply _ _ _)
  · exact zeros128
  · exact fun j => (edgeLanes128 (edgeCoef src dst) j).trans (edgeCoef_apply src dst _)
  · exact fun p => scaledProd_eq_dot1 X W (disOf dst) p
  · exact disOf_nonneg_ne_top dst
  · exact fun r hr e he => wrapped_dst_row dst e r hr he

end Cert.ReferenceIdeal.RefValue
end
-- ==== Proof.Layer64.lean ====
/-
  The second layer: the same at 64 features, for any 128-feature input (the first layer's result).
-/
import proofs.«116535_j22385369547414_2_alg».proof.Proof.BridgeRecords
import proofs.«116535_j22385369547414_2_alg».proof.Proof.LayerGeneric
import proofs.«116535_j22385369547414_2_alg».proof.Proof.NodeScale
import proofs.«116535_j22385369547414_2_alg».proof.Proof.Spec

noncomputable section

open scoped BigOperators

namespace Cert.ReferenceIdeal.RefValue

open Cert.ReferenceIdeal Cert.ReferenceIdeal.Gen Idealize.ShloMosaic Idealize.ShloMosaic.ValueIdx Cert.Lib

/-! ## The second layer -/

/-- The scaled product at 64 features is the host's matrix product with each row scaled by the node's scale. -/
theorem scaledProd_eq_dot2 (X : FVec Ideal S50000x128 .f32) (W : FVec Ideal S128x64 .f32) (d : FVec Ideal S50000 .f32)
    (p : S50000x64.Idx) :
    Cert.Spec.scaledProd X W (broadcastInDim S50000x1 ![0] bcast_S50000_S50000x1_0 d) p
      = Host.dotGeneral (F := Ideal) dot_S50000x128_S128x64_S50000x64_1_0_0_1_n_n none X W p
          * d (ix1 (⟨(p 0).val, idx2_lt0 p⟩ : Fin 50000)) := by
  rw [dot2_eq, dotGeneral_matDims_apply wfD2 none X W p, Cert.Spec.scaledProd_apply, bcastCol_apply]

/-- At 64 features: the kernel's aggregation of the scaled product is the reference's convolution of the bare
    product, clamped at zero. -/
theorem layer64 (X : FVec Ideal S50000x128 .f32) (W : FVec Ideal S128x64 .f32) (b : FVec Ideal S64 .f32)
    (src dst : IVec S1600000 32) :
    aggR64 (Cert.Spec.scaledProd X W (broadcastInDim S50000x1 ![0] bcast_S50000_S50000x1_0 (disOf dst)))
        (broadcastInDim S50000x1 ![0] bcast_S50000_S50000x1_0 (disOf dst)) src dst b
      = maximumf (conv64 (Host.dotGeneral dot_S50000x128_S128x64_S50000x64_1_0_0_1_n_n none X W) src dst b)
          (broadcastInDim S50000x64 ![] bcast_S_S50000x64 (constant S_ .f32 0x00000000#32)) := by
  unfold aggR64 conv64
  rw [scatter64_eq, gather64_eq]
  refine agg_eq_conv (N := 50000) (E := 1600000) (C := 64) (by decide) wfG64 wfS64 wfV _ _ _ _ _ _ _ _ (disOf dst) _
    (broadcastInDim S1600000x1 ![0] bcast_S1600000_S1600000x1_0 (wrapIdx dst)) _ ?_ ?_ ?_ ?_ ?_ ?_ ?_
  · exact fun i => scaleLanes64 (disOf dst) i
  · exact fun i => (scaleLanes64 (mulf (disOf dst) (disOf dst)) i).trans (mulf_apply _ _ _)
  · exact zeros64
  · exact fun j => (edgeLanes64 (edgeCoef src dst) j).trans (edgeCoef_apply src dst _)
  · exact fun p => scaledProd_eq_dot2 X W (disOf dst) p
  · exact disOf_nonneg_ne_top dst
  · exact fun r hr e he => wrapped_dst_row dst e r hr he

end Cert.ReferenceIdeal.RefValue
end
-- ==== Proof.Bridge.lean ====
/-
  The two programs compute one function of the six arguments. The kernel program scales the dense product
  by each node's inverse square-root degree inside its matrix kernel, aggregates over the edges, and scales
  the aggregate once more at the destination; the reference scales each edge's message by both endpoints'
  inverse square-root degrees. Layer by layer the two agree (Layer128, Layer64), for every input of the
  layer, so the composition of the two layers agrees: the second layer's statement is applied at the first
  layer's common result.
-/
import proofs.«116535_j22385369547414_2_alg».proof.Proof.Layer128
import proofs.«116535_j22385369547414_2_alg».proof.Proof.Layer64

noncomputable section

namespace Cert.ReferenceIdeal.RefValue

open Cert.ReferenceIdeal Cert.ReferenceIdeal.Gen Idealize.ShloMosaic Idealize.ShloMosaic.ValueIdx Cert.Lib

/-- The kernel program's result and the reference's are the same array, for all arguments. -/
theorem kOut_eq_rOut (x : FVec Ideal S50000x64 .f32) (ei : IVec S2x1600000 32) (W1 : FVec Ideal S64x128 .f32)
    (b1 : FVec Ideal S128 .f32) (W2 : FVec Ideal S128x64 .f32) (b2 : FVec Ideal S64 .f32) :
    Cert.KernelIdeal.KTerms.kOut x ei W1 b1 W2 b2 = rOut x ei W1 b1 W2 b2 := by
  unfold Cert.KernelIdeal.KTerms.kOut Cert.KernelIdeal.KTerms.hidden rOut hidden
  rw [agg64_eq_aggR, agg128_eq_aggR, disCol_eq, srcOf_eq, dstOf_eq, layer128, layer64]

end Cert.ReferenceIdeal.RefValue

end
-- ==== Proof.lean ====
/-
  A two-layer graph convolution over 50000 nodes and 1600000 edges. Per layer, with `H = X · W` the dense
  product, `dis(v) = (1 + number of edges arriving at v)^(-1/2)` and `s(e)`, `d(e)` an edge's endpoints, the result
  at node `v` is `relu(Σ_{d(e) = v} H(s(e)) · dis(s(e)) · dis(v) + H(v) · dis(v)² + b)`.
  The kernel program computes `H · dis` row-scaled inside its matrix kernel (ten blocks of 5000 rows), gathers
  that at the sources, adds it up at the destinations and scales the sum by `dis(v)`; the reference gathers `H`,
  scales each edge's message by `dis(s(e)) · dis(d(e))` and adds up. The two agree on the extended reals for
  every input: `dis(v)` is a non-negative real (the degree is at least one), and such a factor moves inside a
  sum of extended reals; the rest is associativity and commutativity of the product. No finiteness of the
  inputs is used. Edge endpoints outside the node range are treated alike by both programs (a gather wraps a
  negative index and clamps; the accumulating scatter drops an update that lands outside), and an update that
  lands on `v` has destination exactly `v`.
  Modules: Spec (the row-scaled product), RegionValue0/1 (each matrix kernel's result array is that
  function of the arrays it finds), KRunNamed, KStagesA/B, KRun (the kernel program's run, its result named as
  a function of the six arguments), RTerms (the reference's result as a composition of stages), LayerCore,
  LayerGeneric, Layer128, Layer64, Bridge (the two functions are one), Assembly (the five claims).
-/
import proofs.«116535_j22385369547414_2_alg».proof.Defs
import proofs.«116535_j22385369547414_2_alg».proof.Proof.Assembly
import proofs.«116535_j22385369547414_2_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves,
    Parts.algebraic_of Cert.ReferenceIdeal.RefValue.kOut_eq_rOut⟩

end Cert.Proof

end
